-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S3x4096x4096 : Shape := ⟨3, ![3, 4096, 4096]⟩
abbrev S128x384 : Shape := ⟨2, ![128, 384]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S3x4096x4096 .f32) (main_arg2 : FVec F S128x384 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S3x4096x4096 : Shape := ⟨3, ![3, 4096, 4096]⟩
abbrev S128x384 : Shape := ⟨2, ![128, 384]⟩
abbrev S128 : Shape := ⟨1, ![128]⟩
abbrev S128x3x128 : Shape := ⟨3, ![128, 3, 128]⟩
abbrev S3x128x128 : Shape := ⟨3, ![3, 128, 128]⟩
abbrev S1x128 : Shape := ⟨2, ![1, 128]⟩
abbrev S1x512x4096 : Shape := ⟨3, ![1, 512, 4096]⟩
abbrev S1x128x128 : Shape := ⟨3, ![1, 128, 128]⟩
abbrev S512x4096 : Shape := ⟨2, ![512, 4096]⟩
abbrev S512x128 : Shape := ⟨2, ![512, 128]⟩
abbrev S128x128 : Shape := ⟨2, ![128, 128]⟩

abbrev nBuf : Space → Nat
  | .hbm => 8
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S3x4096x4096, .f32⟩
  | .hbm, ⟨2, _⟩ => ⟨S128x384, .f32⟩
  | .hbm, ⟨3, _⟩ => ⟨S128, .f32⟩
  | .hbm, ⟨4, _⟩ => ⟨S128x3x128, .f32⟩
  | .hbm, ⟨5, _⟩ => ⟨S3x128x128, .f32⟩
  | .hbm, ⟨6, _⟩ => ⟨S1x128, .f32⟩
  | .hbm, ⟨7, _⟩ => ⟨S4096x128, .f32⟩
  | .local _ .vmem, ⟨0, _⟩ => ⟨S1x512x4096, .f32⟩
  | .local _ .vmem, ⟨1, _⟩ => ⟨S1x512x4096, .f32⟩
  | .local _ .vmem, ⟨2, _⟩ => ⟨S4096x128, .f32⟩
  | .local _ .vmem, ⟨3, _⟩ => ⟨S1x128x128, .f32⟩
  | .local _ .vmem, ⟨4, _⟩ => ⟨S1x128x128, .f32⟩
  | .local _ .vmem, ⟨5, _⟩ => ⟨S1x128, .f32⟩
  | .local _ .vmem, ⟨6, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_8 : BitVec 32 := 0#32
  let v10 : BitVec 1 := Scalar.cmpi .ne v9 c0_i32_8
  v10

def k0_off1 (i : grid0.Coords) : Fin 2 → Nat :=
  let arg1 : BitVec 32 := BitVec.ofNat 32 (i 1).val
  let c512_i32 : BitVec 32 := 512#32
  let v7 : BitVec 32 := Scalar.muli arg1 c512_i32
  let v18 : Index := Scalar.indexCast v7
  let c0_13 : Index := 0#32
  ![v18.toNat, 0]
def k0_cond2 (i : grid0.Coords) : BitVec 1 :=
  let arg0 : BitVec 32 := BitVec.ofNat 32 (i 0).val
  let c0_i32_9 : BitVec 32 := 0#32
  let v11 : BitVec 1 := Scalar.cmpi .sgt arg0 c0_i32_9
  let v12 : BitVec 32 := Scalar.extui v11
  let c0_i32_10 : BitVec 32 := 0#32
  let v13 : BitVec 1 := Scalar.cmpi .ne v12 c0_i32_10
  v13

def k0_off2 (i : grid0.Coords) : Fin 2 → Nat :=
  let arg1 : BitVec 32 := BitVec.ofNat 32 (i 1).val
  let c512_i32 : BitVec 32 := 512#32
  let v7 : BitVec 32 := Scalar.muli arg1 c512_i32
  let v14 : Index := Scalar.indexCast v7
  let c0_11 : Index := 0#32
  ![v14.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S128x384_S128x3x128 : S128x384.ShapeCasts S128x3x128
  transposes_S128x3x128_S3x128x128_1_2_0 : S128x3x128.Transposes [1, 2, 0] S3x128x128
  shapeCasts_S128_S1x128 : S128.ShapeCasts S1x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S4096x128_S4096x128_0_0 : ∀ a, (![0, 0] : Fin 2 → Nat) a + S4096x128.size a ≤ S4096x128.size a
  h_S4096x128 : 0 < S4096x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  h_S512x128 : 0 < S512x128.numel
  shapeCasts_S512x128_S512x128 : S512x128.ShapeCasts S512x128
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  k0_off1_inb : ∀ i : grid0.Coords, ∀ (k0_h1 : k0_cond1 i = 1#1), ∀ a, (k0_off1 i) a + S512x128.size a ≤ S4096x128.size a
  k0_off2_inb : ∀ i : grid0.Coords, ∀ (k0_h2 : k0_cond2 i = 1#1), ∀ a, (k0_off2 i) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S3x4096x4096.size a
  hwx0_0 : ∀ i : grid0.Coords, EltTy.bits .f32 = 32 ∨ (Rect.block (s := S3x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S3x128x128.size a
  hwx0_2 : ∀ i : grid0.Coords, EltTy.bits .f32 = 32 ∨ (Rect.block (s := S3x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S3x4096x4096 : Shape := ⟨3, ![3, 4096, 4096]⟩
abbrev S128x384 : Shape := ⟨2, ![128, 384]⟩
abbrev S128 : Shape := ⟨1, ![128]⟩
abbrev S1x4096x4096 : Shape := ⟨3, ![1, 4096, 4096]⟩
abbrev S4096x4096 : Shape := ⟨2, ![4096, 4096]⟩
abbrev S4096x384 : Shape := ⟨2, ![4096, 384]⟩
abbrev S384x128 : Shape := ⟨2, ![384, 128]⟩
abbrev S1x128 : Shape := ⟨2, ![1, 128]⟩

abbrev nBuf : Space → Nat
  | .hbm => 19
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S3x4096x4096, .f32⟩
  | .hbm, ⟨2, _⟩ => ⟨S128x384, .f32⟩
  | .hbm, ⟨3, _⟩ => ⟨S128, .f32⟩
  | .hbm, ⟨4, _⟩ => ⟨S1x4096x4096, .f32⟩
  | .hbm, ⟨5, _⟩ => ⟨S4096x4096, .f32⟩
  | .hbm, ⟨6, _⟩ => ⟨S4096x128, .f32⟩
  | .hbm, ⟨7, _⟩ => ⟨S1x4096x4096, .f32⟩
  | .hbm, ⟨8, _⟩ => ⟨S4096x4096, .f32⟩
  | .hbm, ⟨9, _⟩ => ⟨S4096x128, .f32⟩
  | .hbm, ⟨10, _⟩ => ⟨S1x4096x4096, .f32⟩
  | .hbm, ⟨11, _⟩ => ⟨S4096x4096, .f32⟩
  | .hbm, ⟨12, _⟩ => ⟨S4096x128, .f32⟩
  | .hbm, ⟨13, _⟩ => ⟨S4096x384, .f32⟩
  | .hbm, ⟨14, _⟩ => ⟨S384x128, .f32⟩
  | .hbm, ⟨15, _⟩ => ⟨S4096x128, .f32⟩
  | .hbm, ⟨16, _⟩ => ⟨S1x128, .f32⟩
  | .hbm, ⟨17, _⟩ => ⟨S4096x128, .f32⟩
  | .hbm, ⟨18, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  slices_S3x4096x4096_S1x4096x4096_0_0_0 : S3x4096x4096.Slices ![0, 0, 0] S1x4096x4096
  shapeCasts_S1x4096x4096_S4096x4096 : S1x4096x4096.ShapeCasts S4096x4096
  slices_S3x4096x4096_S1x4096x4096_1_0_0 : S3x4096x4096.Slices ![1, 0, 0] S1x4096x4096
  slices_S3x4096x4096_S1x4096x4096_2_0_0 : S3x4096x4096.Slices ![2, 0, 0] S1x4096x4096
  concatenates_S4096x128_S4096x128_S4096x128_S4096x384_d1 : Shape.Concatenates [S4096x128, S4096x128, S4096x128] S4096x384 1
  transposes_S128x384_S384x128_1_0 : S128x384.Transposes [1, 0] S384x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x4096_S4096x128_S4096x128_1_0_0_1_n_n_wf : DotDims.WF S4096x4096 S4096x128 S4096x128 [1] [0] [0] [1] [] []
  dot_S4096x384_S384x128_S4096x128_1_0_0_1_n_n_wf : DotDims.WF S4096x384 S384x128 S4096x128 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

class Facts : Prop extends Facts₀ where

variable [Facts]
-- ==== Proof.WordRows.lean ====
/-
  The kernel body at one grid point, with the output buffer's rows named.

  The output's staging buffer is the whole 4096 x 128 result, carried from point to point. At point (i, rb) the body
  overwrites the 512 rows [512 rb, 512 rb + 512) and touches nothing else: at the first hop (i = 0) with
  contrib + bias, at a later hop (i > 0) with (those rows as found) + contrib, where contrib is the point's
  (512 x 4096) . (4096 x 128) . (128 x 128) product. Stated pointwise: which rows the buffer handed back has at the
  payload, and that every other row is as it was handed in.
-/
import proofs.«176225_g24919400252013_cont_8to1_190_17_alg».proof.Proof.Gen.Kernel.Frame
import proofs.«176225_g24919400252013_cont_8to1_190_17_alg».proof.Proof.Gen.Kernel.Skeleton
import Idealize.ShloMosaic.Lib.WritesUnit
import Idealize.ShloMosaic.Lib.Pipeline.Value

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rows of the carried buffer -/

/-- Rows `[o, o + 512)` of `Z` are `p`, row by row and column by column. -/
def RowsAre (o : ℕ) (p : Vec F S512x128 .f32) (Z : Vec F S4096x128 .f32) : Prop :=
  ∀ (y : S4096x128.Idx) (x : S512x128.Idx), (y 0).val = o + (x 0).val → (y 1).val = (x 1).val → Z y = p x

/-- Outside rows `[o, o + 512)`, `X` is `Y`. -/
def RowsKept (o : ℕ) (Y X : Vec F S4096x128 .f32) : Prop :=
  ∀ y : S4096x128.Idx, ((y 0).val < o ∨ o + 512 ≤ (y 0).val) → X y = Y y

/-- The first hop's step: the rows become `p`, the rest is kept. -/
def StepSet (o : ℕ) (p : Vec F S512x128 .f32) (Y X : Vec F S4096x128 .f32) : Prop :=
  RowsAre o p X ∧ RowsKept o Y X

/-- A later hop's step: the rows, found at `q`, become `g q`; the rest is kept. -/
def StepAdd (o : ℕ) (g : Vec F S512x128 .f32 → Vec F S512x128 .f32) (Y X : Vec F S4096x128 .f32) : Prop :=
  ∃ q : Vec F S512x128 .f32, RowsAre o q Y ∧ RowsAre o (g q) X ∧ RowsKept o Y X

/-- One store of 512 whole rows at row `o` into a buffer reading `Y`: those rows read the payload, the others `Y`. -/
theorem stepSet_store {arg6 : Memref sig .tc .vmem S4096x128 .f32} (harg6 : arg6.IsWhole) {off : Fin 2 → ℕ} {o : ℕ}
    (inb : ∀ a : Fin 2, off a + S512x128.size a ≤ S4096x128.size a) (hoff : off = ![o, 0])
    (p : Vec F S512x128 .f32) (Y : Vec F S4096x128 .f32) :
    StepSet o p Y (arg6.view.read (Elt F) (arg6.view.writes (Elt F) (harg6.unread Y)
      [(⟨Rect.unit (s := S4096x128) off S512x128.size inb, p⟩ : View.Piece (Elt F) S4096x128 .f32)])) := by
  refine ⟨fun y x h0 h1 => ?_, fun y h => ?_⟩
  · exact View.read_writes_cons_rows_of_mem arg6.view (harg6.unread Y) inb p [] y x hoff h0 h1
  · rw [View.read_writes_cons_rows_of_not_mem arg6.view (harg6.unread Y) inb p [] y hoff rfl h, View.writes_nil,
      harg6.read_unread]

/-- What a load of those rows reads of a buffer reading `Y`. -/
theorem rowsAre_ld {off : Fin 2 → ℕ} {o : ℕ} (inb : ∀ a : Fin 2, off a + S512x128.size a ≤ S4096x128.size a)
    (hoff : off = ![o, 0]) (Y : Vec F S4096x128 .f32) :
    RowsAre o (View.ld Y (Rect.unit (s := S4096x128) off S512x128.size inb)) Y := by
  subst hoff
  intro y x h0 h1
  show Y y = Y ((Rect.unit (s := S4096x128) ![o, 0] S512x128.size inb).idx x)
  refine congrArg Y (funext fun a => Fin.ext ?_)
  show (y a).val = (![o, 0] : Fin 2 → ℕ) a + 1 * (x a).val
  match a with
  | ⟨0, _⟩ => rw [Nat.one_mul]; exact h0
  | ⟨1, _⟩ => rw [Nat.one_mul]; exact h1.trans (Nat.zero_add _).symm

/-! ## The body's two cases -/

set_option maxHeartbeats 1000000 in
/-- THE FIRST HOP (the first conditional taken, the second not): from the inputs' buffers at their contents and the
    output's at `Y`, the body hands the inputs back as they were and the output at `Y` with rows `[o, o + 512)` set to
    contrib + bias (`k0_pay2`). -/
theorem bodyFirst (c : Dev nD) (i : grid0.Coords) (arg2 : Memref sig .tc .vmem S1x512x4096 .f32) (harg2 : arg2.IsWhole) (arg3 : Memref sig .tc .vmem S4096x128 .f32) (harg3 : arg3.IsWhole) (arg4 : Memref sig .tc .vmem S1x128x128 .f32) (harg4 : arg4.IsWhole) (arg5 : Memref sig .tc .vmem S1x128 .f32) (harg5 : arg5.IsWhole) (arg6 : Memref sig .tc .vmem S4096x128 .f32) (harg6 : arg6.IsWhole) (hc0 : k0_cond1 i = 1#1) (hc1 : ¬ k0_cond2 i = 1#1)
    (o : ℕ) (ho : k0_off1 i = ![o, 0])
    (x0 : Vec F S1x512x4096 .f32) (x1 : Vec F S4096x128 .f32) (x2 : Vec F S1x128x128 .f32) (x3 : Vec F S1x128 .f32) (Y : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare Y
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ X, ⌜StepSet o (k0_pay2 x0 x1 x2 x3) Y X⌝ ∗ owns (c : Thread nD τ) arg6 fullShare X)) -∗ K ⟨⟩))
          ⊢ wp frame (wpE (defs₀ (F := F)) Variants.none c none) E (cc0__khop_body i arg2 harg2 arg3 harg3 arg4 harg4 arg5 harg5 arg6 harg6) K := by
    intro E K
    simp only [cc0__khop_body_eq_skeleton]; unfold cc0__khop_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap
    · iexists _; isplitr; swap; · iexact H4
      ipureintro; rfl
    ipureintro
    have hz3 : (![0, 0, 0] : Fin 3 → ℕ) = fun _ => 0 := funext fun a => by
      match a with | ⟨0, _⟩ => rfl | ⟨1, _⟩ => rfl | ⟨2, _⟩ => rfl
    have hz2 : (![0, 0] : Fin 2 → ℕ) = fun _ => 0 := funext fun a => by
      match a with | ⟨0, _⟩ => rfl | ⟨1, _⟩ => rfl
    simp only [View.readAt_eq_ld, harg2.read_unread, harg3.read_unread, harg4.read_unread, harg5.read_unread, harg6.read_unread,
      View.ld_unit_zero (S := S1x512x4096) hz3, View.ld_unit_zero (S := S4096x128) hz2,
      View.ld_unit_zero (S := S1x128x128) hz3, View.ld_unit_zero (S := S1x128) hz2]
    exact stepSet_store harg6 _ ho _ Y

set_option maxHeartbeats 1000000 in
/-- A LATER HOP (the first conditional not taken, the second taken): the output is handed back at `Y` with rows
    `[o, o + 512)` set to (those rows of `Y`) + contrib (`k0_pay3`). -/
theorem bodyLater (c : Dev nD) (i : grid0.Coords) (arg2 : Memref sig .tc .vmem S1x512x4096 .f32) (harg2 : arg2.IsWhole) (arg3 : Memref sig .tc .vmem S4096x128 .f32) (harg3 : arg3.IsWhole) (arg4 : Memref sig .tc .vmem S1x128x128 .f32) (harg4 : arg4.IsWhole) (arg5 : Memref sig .tc .vmem S1x128 .f32) (harg5 : arg5.IsWhole) (arg6 : Memref sig .tc .vmem S4096x128 .f32) (harg6 : arg6.IsWhole) (hc0 : ¬ k0_cond1 i = 1#1) (hc1 : k0_cond2 i = 1#1)
    (o : ℕ) (ho : k0_off2 i = ![o, 0])
    (x0 : Vec F S1x512x4096 .f32) (x1 : Vec F S4096x128 .f32) (x2 : Vec F S1x128x128 .f32) (x3 : Vec F S1x128 .f32) (Y : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare Y
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ X, ⌜StepAdd o (k0_pay3 x0 x1 x2) Y X⌝ ∗ owns (c : Thread nD τ) arg6 fullShare X)) -∗ K ⟨⟩))
          ⊢ wp frame (wpE (defs₀ (F := F)) Variants.none c none) E (cc0__khop_body i arg2 harg2 arg3 harg3 arg4 harg4 arg5 harg5 arg6 harg6) K := by
    intro E K
    simp only [cc0__khop_body_eq_skeleton]; unfold cc0__khop_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap
    · iexists _; isplitr; swap; · iexact H4
      ipureintro; rfl
    ipureintro
    have hz3 : (![0, 0, 0] : Fin 3 → ℕ) = fun _ => 0 := funext fun a => by
      match a with | ⟨0, _⟩ => rfl | ⟨1, _⟩ => rfl | ⟨2, _⟩ => rfl
    have hz2 : (![0, 0] : Fin 2 → ℕ) = fun _ => 0 := funext fun a => by
      match a with | ⟨0, _⟩ => rfl | ⟨1, _⟩ => rfl
    simp only [View.readAt_eq_ld, harg2.read_unread, harg3.read_unread, harg4.read_unread, harg5.read_unread, harg6.read_unread,
      View.ld_unit_zero (S := S1x512x4096) hz3, View.ld_unit_zero (S := S4096x128) hz2,
      View.ld_unit_zero (S := S1x128x128) hz3, View.ld_unit_zero (S := S1x128) hz2]
    exact ⟨_, rowsAre_ld (k0_off2_inb i hc1) ho Y, (stepSet_store harg6 _ ho _ Y).1, (stepSet_store harg6 _ ho _ Y).2⟩

end Cert.Kernel.Rows

end
-- ==== Proof.WordFrame.lean ====
/-
  The pipeline's proof data and the frame of the one kernel region.

  Each input window's staging buffer holds the window's block at every point. The output window's buffer is the
  whole result array, carried across the 24 points and written back once, after the last: what a point makes of it is
  a RELATION between the buffer as handed in and as handed back (the point's 512 rows set, or added to; every other
  row kept), not a function of the point alone, because before its first visit a row holds whatever the buffer
  started with. From the body's two cases at every point, the region runs; every argument array ends unchanged.
-/
import proofs.«176225_g24919400252013_cont_8to1_190_17_alg».proof.Proof.WordRows

set_option maxRecDepth 16384

noncomputable section

namespace Cert.Kernel.Carried

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Rows

variable (m : (ℓ : Loc nD τ sig) → Buf (Elt F) ℓ) (ρ : Dev nD → PrngReg)

/-! ## The schedule of the two cases and of the stored rows, decided over the 24 points -/

/-- The first conditional holds at the points of the first hop. -/
theorem first_iff : ∀ t : Fin cfg0.N, k0_cond1 (grid0.coords t) = 1#1 ↔ t.val < 8 :=
  (by decide +kernel : ∀ t : Fin grid0.N, k0_cond1 (grid0.coords t) = 1#1 ↔ t.val < 8)

/-- The second at the points of the later hops. -/
theorem later_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- The first row a point stores: 512 times its row-block coordinate. -/
def rowOf (t : Fin cfg0.N) : ℕ := 512 * (t.val % 8)

theorem off1_eq : ∀ t : Fin cfg0.N, k0_off1 (grid0.coords t) = ![rowOf t, 0] :=
  (by decide +kernel : ∀ t : Fin grid0.N, k0_off1 (grid0.coords t) = ![512 * (t.val % 8), 0])

theorem off2_eq : ∀ t : Fin cfg0.N, k0_off2 (grid0.coords t) = ![rowOf t, 0] :=
  (by decide +kernel : ∀ t : Fin grid0.N, k0_off2 (grid0.coords t) = ![512 * (t.val % 8), 0])

/-! ## The proof data -/

/-- The inputs, exactly: each input's buffer holds its block after every point (the output's entry here is never read:
    its relation is given below). -/
def inputs (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- What point `t` makes of the carried output buffer: at the first hop its rows are set to contrib + bias, at a later
    hop contrib is added to them; the other rows are kept. -/
def step (c : Dev nD) (t : Fin cfg0.N) (Y X : Vec F S4096x128 .f32) : Prop :=
  (t.val < 8 → StepSet (rowOf t) (k0_pay2 (iblk m c 0 t) (iblk m c 1 t) (iblk m c 2 t) (iblk m c 3 t)) Y X)
  ∧ (8 ≤ t.val → StepAdd (rowOf t) (k0_pay3 (iblk m c 0 t) (iblk m c 1 t) (iblk m c 2 t)) Y X)

/-- The relations, window by window: the inputs' as the exact data gives them, the output's the step. -/
def rel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (step m c)

/-- The proof data of the one pipeline on core `c`. -/
def data (c : Dev nD) : Pipeline.RDat τ (Elt F) Unit ℕ (UR sig nD τ) ℕ cfg0 c := (inputs m c).toR.override (rel m c)

theorem data_A (c : Dev nD) (w : Fin cfg0.W) : (data m c).A w = V m c (Pipeline.arrRef spec0 w) := rfl

/-- The output's relation is the step. -/
theorem data_after4 (c : Dev nD) : (data m c).after 4 = step m c :=
  (inputs m c).toR.override_after_of_eq_some (w := 4) rfl

/-- An input's buffer, as the body finds it, holds the window's block. -/
theorem finds0 (c : Dev nD) (t : Fin cfg0.N) (X) (h : (data m c).Finds 0 t X) : X = iblk m c 0 t := by
  obtain ⟨d, rfl⟩ := (inputs m c).toR_finds 0 t X (((inputs m c).toR.override_finds (ovr := rel m c) (w := 0) rfl t X).mp h)
  exact before0_0_of m (inputs m c) rfl (fun _ => rfl) t d
theorem finds1 (c : Dev nD) (t : Fin cfg0.N) (X) (h : (data m c).Finds 1 t X) : X = iblk m c 1 t := by
  obtain ⟨d, rfl⟩ := (inputs m c).toR_finds 1 t X (((inputs m c).toR.override_finds (ovr := rel m c) (w := 1) rfl t X).mp h)
  exact before0_1_of m (inputs m c) rfl (fun _ => rfl) t d
theorem finds2 (c : Dev nD) (t : Fin cfg0.N) (X) (h : (data m c).Finds 2 t X) : X = iblk m c 2 t := by
  obtain ⟨d, rfl⟩ := (inputs m c).toR_finds 2 t X (((inputs m c).toR.override_finds (ovr := rel m c) (w := 2) rfl t X).mp h)
  exact before0_2_of m (inputs m c) rfl (fun _ => rfl) t d
theorem finds3 (c : Dev nD) (t : Fin cfg0.N) (X) (h : (data m c).Finds 3 t X) : X = iblk m c 3 t := by
  obtain ⟨d, rfl⟩ := (inputs m c).toR_finds 3 t X (((inputs m c).toR.override_finds (ovr := rel m c) (w := 3) rfl t X).mp h)
  exact before0_3_of m (inputs m c) rfl (fun _ => rfl) t d

/-- An input's buffer left at the window's block is what its relation asks. -/
theorem leaves_in (c : Dev nD) (t : Fin cfg0.N) (w : Fin cfg0.W) (hw : rel m c w = none) (hi : cfg0.idle w (grid0.coords t) = false)
    (hl : cfg0.loose w = false) (Y X) (hX : X = (inputs m c).after w t) : (data m c).after w t Y X := by
  have e : (data m c).after w = (inputs m c).toR.after w := (inputs m c).toR.override_after_of_eq_none hw
  rw [e]
  show (inputs m c).Leaves w t X
  unfold Dat.Leaves
  rw [show cfg0.idle w (cfg0.grid.coords t) = false from hi, hl]
  exact hX

/-! ## The body obligation -/

set_option maxHeartbeats 800000 in
/-- The body at any point, the windows one by one: the inputs' buffers hold their blocks; the point is of the first hop or
    of a later one, and the body's case there gives the step. -/
theorem sound_body (c : Dev nD) (t : Fin cfg0.N)
    (Y : (w : Fin cfg0.W) → (cfg0.win w).block.Idx → Elt F (cfg0.win w).elt) (hY : ∀ w, (data m c).Finds w t (Y w)) :
    iprop((data m c).Φ t.castSucc ∗ (data m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4))
      ⊢ wp frame (wpE (defs₀ (F := F)) Variants.none c none) Set.univ (bodyAt0 t) (fun _ =>
          iprop((data m c).Φ t.succ ∗ (data m c).owesAt () t.succ
            ∗ (∃ X, ⌜(data m c).after 0 t (Y 0) X⌝ ∗ owns (c : Thread nD τ) ((cfg0.win 0).stage (cfg0.slots t 0)) fullShare X)
            ∗ (∃ X, ⌜(data m c).after 1 t (Y 1) X⌝ ∗ owns (c : Thread nD τ) ((cfg0.win 1).stage (cfg0.slots t 1)) fullShare X)
            ∗ (∃ X, ⌜(data m c).after 2 t (Y 2) X⌝ ∗ owns (c : Thread nD τ) ((cfg0.win 2).stage (cfg0.slots t 2)) fullShare X)
            ∗ (∃ X, ⌜(data m c).after 3 t (Y 3) X⌝ ∗ owns (c : Thread nD τ) ((cfg0.win 3).stage (cfg0.slots t 3)) fullShare X)
            ∗ (∃ X, ⌜(data m c).after 4 t (Y 4) X⌝ ∗ owns (c : Thread nD τ) ((cfg0.win 4).stage (cfg0.slots t 4)) fullShare X))) := by
  have e0 := finds0 m c t (Y 0) (hY 0)
  have e1 := finds1 m c t (Y 1) (hY 1)
  have e2 := finds2 m c t (Y 2) (hY 2)
  have e3 := finds3 m c t (Y 3) (hY 3)
  have l0 : ∀ Z, (data m c).after 0 t Z (iblk m c 0 t) := fun Z => leaves_in m c t 0 rfl rfl rfl Z _ rfl
  have l1 : ∀ Z, (data m c).after 1 t Z (iblk m c 1 t) := fun Z => leaves_in m c t 1 rfl rfl rfl Z _ rfl
  have l2 : ∀ Z, (data m c).after 2 t Z (iblk m c 2 t) := fun Z => leaves_in m c t 2 rfl rfl rfl Z _ rfl
  have l3 : ∀ Z, (data m c).after 3 t Z (iblk m c 3 t) := fun Z => leaves_in m c t 3 rfl rfl rfl Z _ rfl
  rw [e0, e1, e2, e3, data_after4]
  rw [show (data m c).Φ t.succ = (data m c).Φ t.castSucc from rfl,
    show (data m c).owesAt () t.succ = (data m c).owesAt () t.castSucc from rfl]
  unfold bodyAt0
  by_cases h0 : t.val < 8
  · iintro ⟨HΦ, Ho, H0, H1, H2, H3, H4⟩
    iapply ((bodyFirst c (grid0.coords t) _ _ _ _ _ _ _ _ _ _ ((first_iff t).mpr h0) (fun h => absurd ((later_iff t).mp h) (by omega))
      (rowOf t) (off1_eq t) (iblk m c 0 t) (iblk m c 1 t) (iblk m c 2 t) (iblk m c 3 t) (Y 4)) Set.univ _)
    isplitl [H0]; · iexact H0
    isplitl [H1]; · iexact H1
    isplitl [H2]; · iexact H2
    isplitl [H3]; · iexact H3
    isplitl [H4]; · iexact H4
    iintro ⟨H0, H1, H2, H3, ⟨%X, %hX, H4⟩⟩
    isplitl [HΦ]; · iexact HΦ
    isplitl [Ho]; · iexact Ho
    isplitl [H0]; · iexists _; isplitr; · ipureintro; exact l0 _
                    iexact H0
    isplitl [H1]; · iexists _; isplitr; · ipureintro; exact l1 _
                    iexact H1
    isplitl [H2]; · iexists _; isplitr; · ipureintro; exact l2 _
                    iexact H2
    isplitl [H3]; · iexists _; isplitr; · ipureintro; exact l3 _
                    iexact H3
    iexists X; isplitr; · ipureintro; exact ⟨fun _ => hX, fun h => absurd h (by omega)⟩
    iexact H4
  · iintro ⟨HΦ, Ho, H0, H1, H2, H3, H4⟩
    iapply ((bodyLater c (grid0.coords t) _ _ _ _ _ _ _ _ _ _ (fun h => h0 ((first_iff t).mp h)) ((later_iff t).mpr (by omega))
      (rowOf t) (off2_eq t) (iblk m c 0 t) (iblk m c 1 t) (iblk m c 2 t) (iblk m c 3 t) (Y 4)) Set.univ _)
    isplitl [H0]; · iexact H0
    isplitl [H1]; · iexact H1
    isplitl [H2]; · iexact H2
    isplitl [H3]; · iexact H3
    isplitl [H4]; · iexact H4
    iintro ⟨H0, H1, H2, H3, ⟨%X, %hX, H4⟩⟩
    isplitl [HΦ]; · iexact HΦ
    isplitl [Ho]; · iexact Ho
    isplitl [H0]; · iexists _; isplitr; · ipureintro; exact l0 _
                    iexact H0
    isplitl [H1]; · iexists _; isplitr; · ipureintro; exact l1 _
                    iexact H1
    isplitl [H2]; · iexists _; isplitr; · ipureintro; exact l2 _
                    iexact H2
    isplitl [H3]; · iexists _; isplitr; · ipureintro; exact l3 _
                    iexact H3
    iexists X; isplitr; · ipureintro; exact ⟨fun h => absurd h h0, fun _ => hX⟩
    iexact H4

/-- The library's body obligation for relational data, at every point. -/
theorem body_obligation (c : Dev nD) : (data (F := F) m c).BodyObligation (defs₀ (F := F)) Variants.none () Set.univ :=
  fun t Y hY => by
    rw [bigSep_W0, bigSep_W0]
    exact sound_body m c t Y hY

/-! ## The run and the frame -/

set_option backward.isDefEq.respectTransparency.types false in
/-- Every weakly fair execution of @main terminates; each windowed array ends at contents the data allows after every
    write-back, every other unscoped buffer as the region found it. -/
theorem run_main : θ_run defs (onTc (τ := τ) (main (F := F))) (s₀ m ρ) (Pipeline.RDat.FramePost (cfgs 0) (fun c => data m c) (V m)) :=
  Pipeline.RDat.θ_run_frame cfgs (0 : Fin 1) launch0 defs₀ Variants.none (fun c => data m c) m ρ main
    (hbody := fun c => body_obligation m c) (hshare := fun c => (data m c).share_full fun _ => rfl)
    (howed := fun _ _ => rfl) (V := V m) (hmain := hmain m Variants.none) (hA := data_A m) (hΦ := fun _ _ => rfl)

/-- THE FRAME: the argument arrays end as launched — the two a window stages because an input's array is never written,
    the two no window stages because the region leaves them alone, and no host operation before it writes any. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_main m ρ)
  obtain ⟨hw, hrest⟩ := hr c
  have h1 := hw 1
  have h0 := hw 0
  rw [(data m c).ArrAt_in 1 rfl] at h1
  rw [(data m c).ArrAt_in 0 rfl] at h0
  exact ⟨h1.trans (V_main_arg0 m c), h0.trans (V_main_arg1 m c),
    (hrest main_arg2 (Pipeline.mem_restRefs_of main_arg2 (by decide) (by decide))).trans (V_main_arg2 m c),
    (hrest main_arg3 (Pipeline.mem_restRefs_of main_arg3 (by decide) (by decide))).trans (V_main_arg3 m c)⟩

end Cert.Kernel.Carried

end
-- ==== Proof.IdealRows.lean ====
/-
  The kernel body at one grid point, with the output buffer's rows named.

  The output's staging buffer is the whole 4096 x 128 result, carried from point to point. At point (i, rb) the body
  overwrites the 512 rows [512 rb, 512 rb + 512) and touches nothing else: at the first hop (i = 0) with
  contrib + bias, at a later hop (i > 0) with (those rows as found) + contrib, where contrib is the point's
  (512 x 4096) . (4096 x 128) . (128 x 128) product. Stated pointwise: which rows the buffer handed back has at the
  payload, and that every other row is as it was handed in.
-/
import proofs.«176225_g24919400252013_cont_8to1_190_17_alg».proof.Proof.Gen.KernelIdeal.Frame
import proofs.«176225_g24919400252013_cont_8to1_190_17_alg».proof.Proof.Gen.KernelIdeal.Skeleton
import Idealize.ShloMosaic.Lib.WritesUnit
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rows of the carried buffer -/

/-- Rows `[o, o + 512)` of `Z` are `p`, row by row and column by column. -/
def RowsAre (o : ℕ) (p : Vec F S512x128 .f32) (Z : Vec F S4096x128 .f32) : Prop :=
  ∀ (y : S4096x128.Idx) (x : S512x128.Idx), (y 0).val = o + (x 0).val → (y 1).val = (x 1).val → Z y = p x

/-- Outside rows `[o, o + 512)`, `X` is `Y`. -/
def RowsKept (o : ℕ) (Y X : Vec F S4096x128 .f32) : Prop :=
  ∀ y : S4096x128.Idx, ((y 0).val < o ∨ o + 512 ≤ (y 0).val) → X y = Y y

/-- The first hop's step: the rows become `p`, the rest is kept. -/
def StepSet (o : ℕ) (p : Vec F S512x128 .f32) (Y X : Vec F S4096x128 .f32) : Prop :=
  RowsAre o p X ∧ RowsKept o Y X

/-- A later hop's step: the rows, found at `q`, become `g q`; the rest is kept. -/
def StepAdd (o : ℕ) (g : Vec F S512x128 .f32 → Vec F S512x128 .f32) (Y X : Vec F S4096x128 .f32) : Prop :=
  ∃ q : Vec F S512x128 .f32, RowsAre o q Y ∧ RowsAre o (g q) X ∧ RowsKept o Y X

/-- One store of 512 whole rows at row `o` into a buffer reading `Y`: those rows read the payload, the others `Y`. -/
theorem stepSet_store {arg6 : Memref sig .tc .vmem S4096x128 .f32} (harg6 : arg6.IsWhole) {off : Fin 2 → ℕ} {o : ℕ}
    (inb : ∀ a : Fin 2, off a + S512x128.size a ≤ S4096x128.size a) (hoff : off = ![o, 0])
    (p : Vec F S512x128 .f32) (Y : Vec F S4096x128 .f32) :
    StepSet o p Y (arg6.view.read (Elt F) (arg6.view.writes (Elt F) (harg6.unread Y)
      [(⟨Rect.unit (s := S4096x128) off S512x128.size inb, p⟩ : View.Piece (Elt F) S4096x128 .f32)])) := by
  refine ⟨fun y x h0 h1 => ?_, fun y h => ?_⟩
  · exact View.read_writes_cons_rows_of_mem arg6.view (harg6.unread Y) inb p [] y x hoff h0 h1
  · rw [View.read_writes_cons_rows_of_not_mem arg6.view (harg6.unread Y) inb p [] y hoff rfl h, View.writes_nil,
      harg6.read_unread]

/-- What a load of those rows reads of a buffer reading `Y`. -/
theorem rowsAre_ld {off : Fin 2 → ℕ} {o : ℕ} (inb : ∀ a : Fin 2, off a + S512x128.size a ≤ S4096x128.size a)
    (hoff : off = ![o, 0]) (Y : Vec F S4096x128 .f32) :
    RowsAre o (View.ld Y (Rect.unit (s := S4096x128) off S512x128.size inb)) Y := by
  subst hoff
  intro y x h0 h1
  show Y y = Y ((Rect.unit (s := S4096x128) ![o, 0] S512x128.size inb).idx x)
  refine congrArg Y (funext fun a => Fin.ext ?_)
  show (y a).val = (![o, 0] : Fin 2 → ℕ) a + 1 * (x a).val
  match a with
  | ⟨0, _⟩ => rw [Nat.one_mul]; exact h0
  | ⟨1, _⟩ => rw [Nat.one_mul]; exact h1.trans (Nat.zero_add _).symm

/-! ## The body's two cases -/

set_option maxHeartbeats 1000000 in
/-- THE FIRST HOP (the first conditional taken, the second not): from the inputs' buffers at their contents and the
    output's at `Y`, the body hands the inputs back as they were and the output at `Y` with rows `[o, o + 512)` set to
    contrib + bias (`k0_pay2`). -/
theorem bodyFirst (c : Dev nD) (i : grid0.Coords) (arg2 : Memref sig .tc .vmem S1x512x4096 .f32) (harg2 : arg2.IsWhole) (arg3 : Memref sig .tc .vmem S4096x128 .f32) (harg3 : arg3.IsWhole) (arg4 : Memref sig .tc .vmem S1x128x128 .f32) (harg4 : arg4.IsWhole) (arg5 : Memref sig .tc .vmem S1x128 .f32) (harg5 : arg5.IsWhole) (arg6 : Memref sig .tc .vmem S4096x128 .f32) (harg6 : arg6.IsWhole) (hc0 : k0_cond1 i = 1#1) (hc1 : ¬ k0_cond2 i = 1#1)
    (o : ℕ) (ho : k0_off1 i = ![o, 0])
    (x0 : Vec F S1x512x4096 .f32) (x1 : Vec F S4096x128 .f32) (x2 : Vec F S1x128x128 .f32) (x3 : Vec F S1x128 .f32) (Y : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare Y
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ X, ⌜StepSet o (k0_pay2 x0 x1 x2 x3) Y X⌝ ∗ owns (c : Thread nD τ) arg6 fullShare X)) -∗ K ⟨⟩))
          ⊢ wp frame (wpE (defs₀ (F := F)) Variants.none c none) E (cc0__khop_body i arg2 harg2 arg3 harg3 arg4 harg4 arg5 harg5 arg6 harg6) K := by
    intro E K
    simp only [cc0__khop_body_eq_skeleton]; unfold cc0__khop_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap
    · iexists _; isplitr; swap; · iexact H4
      ipureintro; rfl
    ipureintro
    have hz3 : (![0, 0, 0] : Fin 3 → ℕ) = fun _ => 0 := funext fun a => by
      match a with | ⟨0, _⟩ => rfl | ⟨1, _⟩ => rfl | ⟨2, _⟩ => rfl
    have hz2 : (![0, 0] : Fin 2 → ℕ) = fun _ => 0 := funext fun a => by
      match a with | ⟨0, _⟩ => rfl | ⟨1, _⟩ => rfl
    simp only [View.readAt_eq_ld, harg2.read_unread, harg3.read_unread, harg4.read_unread, harg5.read_unread, harg6.read_unread,
      View.ld_unit_zero (S := S1x512x4096) hz3, View.ld_unit_zero (S := S4096x128) hz2,
      View.ld_unit_zero (S := S1x128x128) hz3, View.ld_unit_zero (S := S1x128) hz2]
    exact stepSet_store harg6 _ ho _ Y

set_option maxHeartbeats 1000000 in
/-- A LATER HOP (the first conditional not taken, the second taken): the output is handed back at `Y` with rows
    `[o, o + 512)` set to (those rows of `Y`) + contrib (`k0_pay3`). -/
theorem bodyLater (c : Dev nD) (i : grid0.Coords) (arg2 : Memref sig .tc .vmem S1x512x4096 .f32) (harg2 : arg2.IsWhole) (arg3 : Memref sig .tc .vmem S4096x128 .f32) (harg3 : arg3.IsWhole) (arg4 : Memref sig .tc .vmem S1x128x128 .f32) (harg4 : arg4.IsWhole) (arg5 : Memref sig .tc .vmem S1x128 .f32) (harg5 : arg5.IsWhole) (arg6 : Memref sig .tc .vmem S4096x128 .f32) (harg6 : arg6.IsWhole) (hc0 : ¬ k0_cond1 i = 1#1) (hc1 : k0_cond2 i = 1#1)
    (o : ℕ) (ho : k0_off2 i = ![o, 0])
    (x0 : Vec F S1x512x4096 .f32) (x1 : Vec F S4096x128 .f32) (x2 : Vec F S1x128x128 .f32) (x3 : Vec F S1x128 .f32) (Y : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare Y
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ X, ⌜StepAdd o (k0_pay3 x0 x1 x2) Y X⌝ ∗ owns (c : Thread nD τ) arg6 fullShare X)) -∗ K ⟨⟩))
          ⊢ wp frame (wpE (defs₀ (F := F)) Variants.none c none) E (cc0__khop_body i arg2 harg2 arg3 harg3 arg4 harg4 arg5 harg5 arg6 harg6) K := by
    intro E K
    simp only [cc0__khop_body_eq_skeleton]; unfold cc0__khop_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap
    · iexists _; isplitr; swap; · iexact H4
      ipureintro; rfl
    ipureintro
    have hz3 : (![0, 0, 0] : Fin 3 → ℕ) = fun _ => 0 := funext fun a => by
      match a with | ⟨0, _⟩ => rfl | ⟨1, _⟩ => rfl | ⟨2, _⟩ => rfl
    have hz2 : (![0, 0] : Fin 2 → ℕ) = fun _ => 0 := funext fun a => by
      match a with | ⟨0, _⟩ => rfl | ⟨1, _⟩ => rfl
    simp only [View.readAt_eq_ld, harg2.read_unread, harg3.read_unread, harg4.read_unread, harg5.read_unread, harg6.read_unread,
      View.ld_unit_zero (S := S1x512x4096) hz3, View.ld_unit_zero (S := S4096x128) hz2,
      View.ld_unit_zero (S := S1x128x128) hz3, View.ld_unit_zero (S := S1x128) hz2]
    exact ⟨_, rowsAre_ld (k0_off2_inb i hc1) ho Y, (stepSet_store harg6 _ ho _ Y).1, (stepSet_store harg6 _ ho _ Y).2⟩

end Cert.KernelIdeal.Rows

end
-- ==== Proof.IdealFrame.lean ====
/-
  The pipeline's proof data and the frame of the one kernel region.

  Each input window's staging buffer holds the window's block at every point. The output window's buffer is the
  whole result array, carried across the 24 points and written back once, after the last: what a point makes of it is
  a RELATION between the buffer as handed in and as handed back (the point's 512 rows set, or added to; every other
  row kept), not a function of the point alone, because before its first visit a row holds whatever the buffer
  started with. From the body's two cases at every point, the region runs; every argument array ends unchanged.
-/
import proofs.«176225_g24919400252013_cont_8to1_190_17_alg».proof.Proof.IdealRows

set_option maxRecDepth 16384

noncomputable section

namespace Cert.KernelIdeal.Carried

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Rows

variable (m : (ℓ : Loc nD τ sig) → Buf (Elt F) ℓ) (ρ : Dev nD → PrngReg)

/-! ## The schedule of the two cases and of the stored rows, decided over the 24 points -/

/-- The first conditional holds at the points of the first hop. -/
theorem first_iff : ∀ t : Fin cfg0.N, k0_cond1 (grid0.coords t) = 1#1 ↔ t.val < 8 :=
  (by decide +kernel : ∀ t : Fin grid0.N, k0_cond1 (grid0.coords t) = 1#1 ↔ t.val < 8)

/-- The second at the points of the later hops. -/
theorem later_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- The first row a point stores: 512 times its row-block coordinate. -/
def rowOf (t : Fin cfg0.N) : ℕ := 512 * (t.val % 8)

theorem off1_eq : ∀ t : Fin cfg0.N, k0_off1 (grid0.coords t) = ![rowOf t, 0] :=
  (by decide +kernel : ∀ t : Fin grid0.N, k0_off1 (grid0.coords t) = ![512 * (t.val % 8), 0])

theorem off2_eq : ∀ t : Fin cfg0.N, k0_off2 (grid0.coords t) = ![rowOf t, 0] :=
  (by decide +kernel : ∀ t : Fin grid0.N, k0_off2 (grid0.coords t) = ![512 * (t.val % 8), 0])

/-! ## The proof data -/

/-- The inputs, exactly: each input's buffer holds its block after every point (the output's entry here is never read:
    its relation is given below). -/
def inputs (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- What point `t` makes of the carried output buffer: at the first hop its rows are set to contrib + bias, at a later
    hop contrib is added to them; the other rows are kept. -/
def step (c : Dev nD) (t : Fin cfg0.N) (Y X : Vec F S4096x128 .f32) : Prop :=
  (t.val < 8 → StepSet (rowOf t) (k0_pay2 (iblk m c 0 t) (iblk m c 1 t) (iblk m c 2 t) (iblk m c 3 t)) Y X)
  ∧ (8 ≤ t.val → StepAdd (rowOf t) (k0_pay3 (iblk m c 0 t) (iblk m c 1 t) (iblk m c 2 t)) Y X)

/-- The relations, window by window: the inputs' as the exact data gives them, the output's the step. -/
def rel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (step m c)

/-- The proof data of the one pipeline on core `c`. -/
def data (c : Dev nD) : Pipeline.RDat τ (Elt F) Unit ℕ (UR sig nD τ) ℕ cfg0 c := (inputs m c).toR.override (rel m c)

theorem data_A (c : Dev nD) (w : Fin cfg0.W) : (data m c).A w = V m c (Pipeline.arrRef spec0 w) := rfl

/-- The output's relation is the step. -/
theorem data_after4 (c : Dev nD) : (data m c).after 4 = step m c :=
  (inputs m c).toR.override_after_of_eq_some (w := 4) rfl

/-- An input's buffer, as the body finds it, holds the window's block. -/
theorem finds0 (c : Dev nD) (t : Fin cfg0.N) (X) (h : (data m c).Finds 0 t X) : X = iblk m c 0 t := by
  obtain ⟨d, rfl⟩ := (inputs m c).toR_finds 0 t X (((inputs m c).toR.override_finds (ovr := rel m c) (w := 0) rfl t X).mp h)
  exact before0_0_of m (inputs m c) rfl (fun _ => rfl) t d
theorem finds1 (c : Dev nD) (t : Fin cfg0.N) (X) (h : (data m c).Finds 1 t X) : X = iblk m c 1 t := by
  obtain ⟨d, rfl⟩ := (inputs m c).toR_finds 1 t X (((inputs m c).toR.override_finds (ovr := rel m c) (w := 1) rfl t X).mp h)
  exact before0_1_of m (inputs m c) rfl (fun _ => rfl) t d
theorem finds2 (c : Dev nD) (t : Fin cfg0.N) (X) (h : (data m c).Finds 2 t X) : X = iblk m c 2 t := by
  obtain ⟨d, rfl⟩ := (inputs m c).toR_finds 2 t X (((inputs m c).toR.override_finds (ovr := rel m c) (w := 2) rfl t X).mp h)
  exact before0_2_of m (inputs m c) rfl (fun _ => rfl) t d
theorem finds3 (c : Dev nD) (t : Fin cfg0.N) (X) (h : (data m c).Finds 3 t X) : X = iblk m c 3 t := by
  obtain ⟨d, rfl⟩ := (inputs m c).toR_finds 3 t X (((inputs m c).toR.override_finds (ovr := rel m c) (w := 3) rfl t X).mp h)
  exact before0_3_of m (inputs m c) rfl (fun _ => rfl) t d

/-- An input's buffer left at the window's block is what its relation asks. -/
theorem leaves_in (c : Dev nD) (t : Fin cfg0.N) (w : Fin cfg0.W) (hw : rel m c w = none) (hi : cfg0.idle w (grid0.coords t) = false)
    (hl : cfg0.loose w = false) (Y X) (hX : X = (inputs m c).after w t) : (data m c).after w t Y X := by
  have e : (data m c).after w = (inputs m c).toR.after w := (inputs m c).toR.override_after_of_eq_none hw
  rw [e]
  show (inputs m c).Leaves w t X
  unfold Dat.Leaves
  rw [show cfg0.idle w (cfg0.grid.coords t) = false from hi, hl]
  exact hX

/-! ## The body obligation -/

set_option maxHeartbeats 800000 in
/-- The body at any point, the windows one by one: the inputs' buffers hold their blocks; the point is of the first hop or
    of a later one, and the body's case there gives the step. -/
theorem sound_body (c : Dev nD) (t : Fin cfg0.N)
    (Y : (w : Fin cfg0.W) → (cfg0.win w).block.Idx → Elt F (cfg0.win w).elt) (hY : ∀ w, (data m c).Finds w t (Y w)) :
    iprop((data m c).Φ t.castSucc ∗ (data m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4))
      ⊢ wp frame (wpE (defs₀ (F := F)) Variants.none c none) Set.univ (bodyAt0 t) (fun _ =>
          iprop((data m c).Φ t.succ ∗ (data m c).owesAt () t.succ
            ∗ (∃ X, ⌜(data m c).after 0 t (Y 0) X⌝ ∗ owns (c : Thread nD τ) ((cfg0.win 0).stage (cfg0.slots t 0)) fullShare X)
            ∗ (∃ X, ⌜(data m c).after 1 t (Y 1) X⌝ ∗ owns (c : Thread nD τ) ((cfg0.win 1).stage (cfg0.slots t 1)) fullShare X)
            ∗ (∃ X, ⌜(data m c).after 2 t (Y 2) X⌝ ∗ owns (c : Thread nD τ) ((cfg0.win 2).stage (cfg0.slots t 2)) fullShare X)
            ∗ (∃ X, ⌜(data m c).after 3 t (Y 3) X⌝ ∗ owns (c : Thread nD τ) ((cfg0.win 3).stage (cfg0.slots t 3)) fullShare X)
            ∗ (∃ X, ⌜(data m c).after 4 t (Y 4) X⌝ ∗ owns (c : Thread nD τ) ((cfg0.win 4).stage (cfg0.slots t 4)) fullShare X))) := by
  have e0 := finds0 m c t (Y 0) (hY 0)
  have e1 := finds1 m c t (Y 1) (hY 1)
  have e2 := finds2 m c t (Y 2) (hY 2)
  have e3 := finds3 m c t (Y 3) (hY 3)
  have l0 : ∀ Z, (data m c).after 0 t Z (iblk m c 0 t) := fun Z => leaves_in m c t 0 rfl rfl rfl Z _ rfl
  have l1 : ∀ Z, (data m c).after 1 t Z (iblk m c 1 t) := fun Z => leaves_in m c t 1 rfl rfl rfl Z _ rfl
  have l2 : ∀ Z, (data m c).after 2 t Z (iblk m c 2 t) := fun Z => leaves_in m c t 2 rfl rfl rfl Z _ rfl
  have l3 : ∀ Z, (data m c).after 3 t Z (iblk m c 3 t) := fun Z => leaves_in m c t 3 rfl rfl rfl Z _ rfl
  rw [e0, e1, e2, e3, data_after4]
  rw [show (data m c).Φ t.succ = (data m c).Φ t.castSucc from rfl,
    show (data m c).owesAt () t.succ = (data m c).owesAt () t.castSucc from rfl]
  unfold bodyAt0
  by_cases h0 : t.val < 8
  · iintro ⟨HΦ, Ho, H0, H1, H2, H3, H4⟩
    iapply ((bodyFirst c (grid0.coords t) _ _ _ _ _ _ _ _ _ _ ((first_iff t).mpr h0) (fun h => absurd ((later_iff t).mp h) (by omega))
      (rowOf t) (off1_eq t) (iblk m c 0 t) (iblk m c 1 t) (iblk m c 2 t) (iblk m c 3 t) (Y 4)) Set.univ _)
    isplitl [H0]; · iexact H0
    isplitl [H1]; · iexact H1
    isplitl [H2]; · iexact H2
    isplitl [H3]; · iexact H3
    isplitl [H4]; · iexact H4
    iintro ⟨H0, H1, H2, H3, ⟨%X, %hX, H4⟩⟩
    isplitl [HΦ]; · iexact HΦ
    isplitl [Ho]; · iexact Ho
    isplitl [H0]; · iexists _; isplitr; · ipureintro; exact l0 _
                    iexact H0
    isplitl [H1]; · iexists _; isplitr; · ipureintro; exact l1 _
                    iexact H1
    isplitl [H2]; · iexists _; isplitr; · ipureintro; exact l2 _
                    iexact H2
    isplitl [H3]; · iexists _; isplitr; · ipureintro; exact l3 _
                    iexact H3
    iexists X; isplitr; · ipureintro; exact ⟨fun _ => hX, fun h => absurd h (by omega)⟩
    iexact H4
  · iintro ⟨HΦ, Ho, H0, H1, H2, H3, H4⟩
    iapply ((bodyLater c (grid0.coords t) _ _ _ _ _ _ _ _ _ _ (fun h => h0 ((first_iff t).mp h)) ((later_iff t).mpr (by omega))
      (rowOf t) (off2_eq t) (iblk m c 0 t) (iblk m c 1 t) (iblk m c 2 t) (iblk m c 3 t) (Y 4)) Set.univ _)
    isplitl [H0]; · iexact H0
    isplitl [H1]; · iexact H1
    isplitl [H2]; · iexact H2
    isplitl [H3]; · iexact H3
    isplitl [H4]; · iexact H4
    iintro ⟨H0, H1, H2, H3, ⟨%X, %hX, H4⟩⟩
    isplitl [HΦ]; · iexact HΦ
    isplitl [Ho]; · iexact Ho
    isplitl [H0]; · iexists _; isplitr; · ipureintro; exact l0 _
                    iexact H0
    isplitl [H1]; · iexists _; isplitr; · ipureintro; exact l1 _
                    iexact H1
    isplitl [H2]; · iexists _; isplitr; · ipureintro; exact l2 _
                    iexact H2
    isplitl [H3]; · iexists _; isplitr; · ipureintro; exact l3 _
                    iexact H3
    iexists X; isplitr; · ipureintro; exact ⟨fun h => absurd h h0, fun _ => hX⟩
    iexact H4

/-- The library's body obligation for relational data, at every point. -/
theorem body_obligation (c : Dev nD) : (data (F := F) m c).BodyObligation (defs₀ (F := F)) Variants.none () Set.univ :=
  fun t Y hY => by
    rw [bigSep_W0, bigSep_W0]
    exact sound_body m c t Y hY

/-! ## The run and the frame -/

set_option backward.isDefEq.respectTransparency.types false in
/-- Every weakly fair execution of @main terminates; each windowed array ends at contents the data allows after every
    write-back, every other unscoped buffer as the region found it. -/
theorem run_main : θ_run defs (onTc (τ := τ) (main (F := F))) (s₀ m ρ) (Pipeline.RDat.FramePost (cfgs 0) (fun c => data m c) (V m)) :=
  Pipeline.RDat.θ_run_frame cfgs (0 : Fin 1) launch0 defs₀ Variants.none (fun c => data m c) m ρ main
    (hbody := fun c => body_obligation m c) (hshare := fun c => (data m c).share_full fun _ => rfl)
    (howed := fun _ _ => rfl) (V := V m) (hmain := hmain m Variants.none) (hA := data_A m) (hΦ := fun _ _ => rfl)

/-- THE FRAME: the argument arrays end as launched — the two a window stages because an input's array is never written,
    the two no window stages because the region leaves them alone, and no host operation before it writes any. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_main m ρ)
  obtain ⟨hw, hrest⟩ := hr c
  have h1 := hw 1
  have h0 := hw 0
  rw [(data m c).ArrAt_in 1 rfl] at h1
  rw [(data m c).ArrAt_in 0 rfl] at h0
  exact ⟨h1.trans (V_main_arg0 m c), h0.trans (V_main_arg1 m c),
    (hrest main_arg2 (Pipeline.mem_restRefs_of main_arg2 (by decide) (by decide))).trans (V_main_arg2 m c),
    (hrest main_arg3 (Pipeline.mem_restRefs_of main_arg3 (by decide) (by decide))).trans (V_main_arg3 m c)⟩

end Cert.KernelIdeal.Carried

end
-- ==== Proof.IdealPayload.lean ====
/-
  The body's arithmetic at an index, over the extended reals.

  The point's contribution is two matrix products, each into a zero accumulator: first the 512 x 4096 adjacency block
  against the 4096 x 128 features (the hop's support on the block's rows), then that against the hop's 128 x 128 slice
  of the weight. At `(p, o)`: Σ_d (Σ_j A[0, p, j] · x[j, d]) · Wk[0, d, o]. The first hop stores that plus the bias row,
  a later hop adds it to what the rows held.
-/
import proofs.«176225_g24919400252013_cont_8to1_190_17_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Payload

open Cert.KernelIdeal Cert.KernelIdeal.Gen Idealize.ShloMosaic Idealize.ShloMosaic.ValueIdx

/-- The operand indices of the adjx product at output `(p, c)` and contraction `k` are `(p, k)` and `(k, c)`, coordinate
    by coordinate. -/
theorem adjx_l0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem adjx_l1 (i : S512x128.Idx) (q : dot_S512x4096_S4096x128_S512x128_1_0_0_1_n_n.contr.Idx) : (dot_S512x4096_S4096x128_S512x128_1_0_0_1_n_n.lhsIdx i q 1).val = (q ⟨0, by decide⟩).val :=
  dot_S512x4096_S4096x128_S512x128_1_0_0_1_n_n.lhsIdx_val_of_single rfl i q
theorem adjx_r0 (i : S512x128.Idx) (q : dot_S512x4096_S4096x128_S512x128_1_0_0_1_n_n.contr.Idx) : (dot_S512x4096_S4096x128_S512x128_1_0_0_1_n_n.rhsIdx i q 0).val = (q ⟨0, by decide⟩).val :=
  dot_S512x4096_S4096x128_S512x128_1_0_0_1_n_n.rhsIdx_val_of_single rfl i q
theorem adjx_r1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The adjx product into a zero accumulator, at an index: the plain sum over the contracted axis. -/
theorem adjx_apply (l : FVec Ideal S512x4096 .f32) (r : FVec Ideal S4096x128 .f32) (p : Fin 512) (c : Fin 128) :
    matmul dot_S512x4096_S4096x128_S512x128_1_0_0_1_n_n none l r (constant (F := Ideal) S512x128 .f32 0x00000000#32) (ix2 p c)
      = ∑ k : Fin 4096, l (ix2 p k) * r (ix2 k c) := by
  refine (Ideal.matmul_constant_zero_apply dot_S512x4096_S4096x128_S512x128_1_0_0_1_n_n none l r (ix2 p c)).trans ?_
  rw [← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p c) ((ValueIdx.contrEquiv1 dot_S512x4096_S4096x128_S512x128_1_0_0_1_n_n 4096 rfl rfl).symm k) = ix2 p k := funext fun a => Fin.ext (by
    match a with
    | ⟨0, _⟩ => exact adjx_l0 _ _
    | ⟨1, _⟩ => exact (adjx_l1 _ _).trans hk)
  have er : dot_S512x4096_S4096x128_S512x128_1_0_0_1_n_n.rhsIdx (ix2 p c) ((ValueIdx.contrEquiv1 dot_S512x4096_S4096x128_S512x128_1_0_0_1_n_n 4096 rfl rfl).symm k) = ix2 k c := funext fun a => Fin.ext (by
    match a with
    | ⟨0, _⟩ => exact (adjx_r0 _ _).trans hk
    | ⟨1, _⟩ => exact adjx_r1 _ _)
  rw [el, er]

/-- The operand indices of the supw product at output `(p, c)` and contraction `k` are `(p, k)` and `(k, c)`, coordinate
    by coordinate. -/
theorem supw_l0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem supw_l1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem supw_r0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem supw_r1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The supw product into a zero accumulator, at an index: the plain sum over the contracted axis. -/
theorem supw_apply (l : FVec Ideal S512x128 .f32) (r : FVec Ideal S128x128 .f32) (p : Fin 512) (c : Fin 128) :
    matmul dot_S512x128_S128x128_S512x128_1_0_0_1_n_n none l r (constant (F := Ideal) S512x128 .f32 0x00000000#32) (ix2 p c)
      = ∑ k : Fin 128, l (ix2 p k) * r (ix2 k c) := by
  refine (Ideal.matmul_constant_zero_apply dot_S512x128_S128x128_S512x128_1_0_0_1_n_n none l r (ix2 p c)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p c) ((ValueIdx.contrEquiv1 dot_S512x128_S128x128_S512x128_1_0_0_1_n_n 128 rfl rfl).symm k) = ix2 p k := funext fun a => Fin.ext (by
    match a with
    | ⟨0, _⟩ => exact supw_l0 _ _
    | ⟨1, _⟩ => exact (supw_l1 _ _).trans hk)
  have er : dot_S512x128_S128x128_S512x128_1_0_0_1_n_n.rhsIdx (ix2 p c) ((ValueIdx.contrEquiv1 dot_S512x128_S128x128_S512x128_1_0_0_1_n_n 128 rfl rfl).symm k) = ix2 k c := funext fun a => Fin.ext (by
    match a with
    | ⟨0, _⟩ => exact (supw_r0 _ _).trans hk
    | ⟨1, _⟩ => exact supw_r1 _ _)
  rw [el, er]

/-- THE CONTRIBUTION of one point at `(p, o)`: the block's support against the hop's slice of the weight. -/
theorem pay1_apply (v0 : Vec Ideal S1x512x4096 .f32) (v2 : Vec Ideal S4096x128 .f32) (v4 : Vec Ideal S1x128x128 .f32)
    (p : Fin 512) (o : Fin 128) :
    k0_pay1 (F := Ideal) v0 v2 v4 (ix2 p o)
      = ∑ d : Fin 128, (∑ j : Fin 4096, v0 (ix3 (0 : Fin 1) p j) * v2 (ix2 j d)) * v4 (ix3 (0 : Fin 1) d o) := by
  unfold k0_pay1
  refine (supw_apply _ _ p o).trans ?_
  refine Finset.sum_congr rfl fun d _ => ?_
  refine congrArg₂ (· * ·) ?_ ?_
  · refine (adjx_apply _ _ p d).trans ?_
    refine Finset.sum_congr rfl fun j _ => ?_
    exact congrArg (· * v2 (ix2 j d)) (shapeCast_1ab_ab_apply v0 _ p j)
  · exact shapeCast_1ab_ab_apply v4 _ d o

/-- The first hop's payload: the contribution plus the bias row. -/
theorem pay2_apply (v0 : Vec Ideal S1x512x4096 .f32) (v2 : Vec Ideal S4096x128 .f32) (v4 : Vec Ideal S1x128x128 .f32)
    (v14 : Vec Ideal S1x128 .f32) (p : Fin 512) (o : Fin 128) :
    k0_pay2 (F := Ideal) v0 v2 v4 v14 (ix2 p o) = k0_pay1 (F := Ideal) v0 v2 v4 (ix2 p o) + v14 (ix2 (0 : Fin 1) o) := by
  unfold k0_pay2
  refine (addf_apply _ _ (ix2 p o)).trans ?_
  refine congrArg (k0_pay1 (F := Ideal) v0 v2 v4 (ix2 p o) + ·) ?_
  refine (broadcastTo_1b_ab_apply _ _ p o).trans ?_
  rw [shapeCast_self]

/-- A later hop's payload: what the rows held plus the contribution. -/
theorem pay3_apply (v0 : Vec Ideal S1x512x4096 .f32) (v2 : Vec Ideal S4096x128 .f32) (v4 : Vec Ideal S1x128x128 .f32)
    (v15 : Vec Ideal S512x128 .f32) (p : Fin 512) (o : Fin 128) :
    k0_pay3 (F := Ideal) v0 v2 v4 v15 (ix2 p o) = v15 (ix2 p o) + k0_pay1 (F := Ideal) v0 v2 v4 (ix2 p o) := by
  unfold k0_pay3
  refine (addf_apply _ _ (ix2 p o)).trans ?_
  rw [shapeCast_self]

end Cert.KernelIdeal.Payload

end
-- ==== Proof.Spec.lean ====
/-
  The k-hop graph convolution as one function of the four argument arrays, and the law that joins the two programs.

  With `support i = adj_i · x` (4096 x 128) for the three hops, the reference concatenates the supports along the
  feature axis (4096 x 384), multiplies by `Wᵀ` and adds the bias: out[r, o] = (Σ_{c < 384} h[r, c] · W[o, c]) + b[o].
  The kernel never forms the concatenation: hop `i` contributes Σ_{d < 128} support i [r, d] · W[o, 128 i + d], and the
  output accumulates ((contrib 0 + b) + contrib 1) + contrib 2. The two agree because column `c` of the concatenation
  is column `c mod 128` of hop `c / 128`: the 384-term sum is the three 128-term sums, and the rest is the order of an
  addition. Nothing here needs a finite value: addition of extended reals is commutative and associative throughout.
-/
import Idealize.ShloMosaic.PureOps.Ideal
import Idealize.ShloMosaic.Lib.ValueIdx
import Mathlib.Algebra.BigOperators.Fin

noncomputable section

open scoped BigOperators

namespace Cert.KHop

open Idealize.ShloMosaic Idealize.ShloMosaic.ValueIdx

/-- The arguments' shapes: features, adjacencies, weight, bias. -/
abbrev SX : Shape := ⟨2, ![4096, 128]⟩
abbrev SA : Shape := ⟨3, ![3, 4096, 4096]⟩
abbrev SW : Shape := ⟨2, ![128, 384]⟩
abbrev SB : Shape := ⟨1, ![128]⟩

variable (x : SX.Idx → EReal) (adj : SA.Idx → EReal) (W : SW.Idx → EReal) (b : SB.Idx → EReal)

/-- Hop `i`'s support at row `r`, feature `d`: `(adj_i · x)[r, d]`. -/
def support (i : Fin 3) (r : Fin 4096) (d : Fin 128) : EReal := ∑ j : Fin 4096, adj (ix3 i r j) * x (ix2 j d)

/-- Feature `d` of hop `i` is column `128 i + d` of the concatenation, and of the weight. -/
def col (i : Fin 3) (d : Fin 128) : Fin 384 := ⟨128 * i.val + d.val, by omega⟩

/-- Hop `i`'s contribution to output `(r, o)`: its support against the hop's 128 columns of row `o` of the weight. -/
def contrib (i : Fin 3) (r : Fin 4096) (o : Fin 128) : EReal :=
  ∑ d : Fin 128, support x adj i r d * W (ix2 o (col i d))

/-- The output after the first hop, after two, after all three — in the order the kernel adds. -/
def acc1 (r : Fin 4096) (o : Fin 128) : EReal := contrib x adj W 0 r o + b (ix1 o)
def acc2 (r : Fin 4096) (o : Fin 128) : EReal := acc1 x adj W b r o + contrib x adj W 1 r o
def acc3 (r : Fin 4096) (o : Fin 128) : EReal := acc2 x adj W b r o + contrib x adj W 2 r o

/-- The output after `n` hops (`n` = 1, 2, 3). -/
def accN : ℕ → Fin 4096 → Fin 128 → EReal
  | 1 => acc1 x adj W b
  | 2 => acc2 x adj W b
  | _ => acc3 x adj W b

/-- THE RESULT, as one array of the four arguments. -/
def result : SX.Idx → EReal := fun j => acc3 x adj W b (j 0) (j 1)

/-- Hop and feature from the column: `c` is feature `c mod 128` of hop `c / 128`. -/
def colEquiv : Fin 3 × Fin 128 ≃ Fin 384 where
  toFun p := col p.1 p.2
  invFun c := (⟨c.val / 128, by have := c.isLt; omega⟩, ⟨c.val % 128, by omega⟩)
  left_inv p := by
    obtain ⟨i, d⟩ := p
    refine Prod.ext (Fin.ext ?_) (Fin.ext ?_)
    · show (128 * i.val + d.val) / 128 = i.val
      have := d.isLt; omega
    · show (128 * i.val + d.val) % 128 = d.val
      have := d.isLt; omega
  right_inv c := Fin.ext (by show 128 * (c.val / 128) + c.val % 128 = c.val; omega)

/-- A sum over the 384 columns is the three sums over each hop's 128. -/
theorem sum_cols (f : Fin 384 → EReal) :
    ∑ c : Fin 384, f c = (∑ d : Fin 128, f (col 0 d)) + (∑ d : Fin 128, f (col 1 d)) + ∑ d : Fin 128, f (col 2 d) := by
  rw [← Equiv.sum_comp colEquiv f, Fintype.sum_prod_type, Fin.sum_univ_three]
  rfl

/-- THE JOINING LAW: for any 4096 x 384 array whose column `128 i + d` is hop `i`'s feature `d`, its product with the
    transposed weight plus the bias is the kernel's accumulation. -/
theorem join (h : Fin 4096 → Fin 384 → EReal) (hh : ∀ i r d, h r (col i d) = support x adj i r d) (r : Fin 4096) (o : Fin 128) :
    (∑ c : Fin 384, h r c * W (ix2 o c)) + b (ix1 o) = acc3 x adj W b r o := by
  rw [sum_cols]
  simp only [hh]
  unfold acc3 acc2 acc1 contrib
  ac_rfl

end Cert.KHop

end
-- ==== Proof.IdealBlocks.lean ====
/-
  What the body's loads read at a grid point, in terms of the argument arrays.

  Point `t` of the 3 x 8 grid is hop `t / 8`, row block `t mod 8`. Its adjacency block is rows
  [512 (t mod 8), 512 (t mod 8) + 512) of hop `t / 8`; the feature array is staged whole; the weight block is the hop's
  128 x 128 slice of the re-laid weight `wk[i, d, o] = W[o, 128 i + d]` (a reshape to 128 x 3 x 128 then a transpose
  to 3 x 128 x 128, both done before the region); the bias is staged whole as one row.
-/
import proofs.«176225_g24919400252013_cont_8to1_190_17_alg».proof.Proof.Gen.KernelIdeal.Frame
import proofs.«176225_g24919400252013_cont_8to1_190_17_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KHop
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The printed index maps, decided over the 24 points: the adjacency window follows (hop, row block), the weight window
    the hop; the features, the bias and the output stay at block 0. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The adjacency block at point `t`: row `p` of the block is row `512 (t mod 8) + p` of hop `t / 8`. -/
theorem adj_block (c : Dev nD) (t : Fin cfg0.N) (p : Fin 512) (j : Fin 4096) (i : Fin 3) (r : Fin 4096)
    (hi : i.val = t.val / 8) (hr : r.val = 512 * (t.val % 8) + p.val) :
    (iblk m c 0 t : Vec F S1x512x4096 .f32) (ix3 (0 : Fin 1) p j) = V m c main_arg1 (ix3 i r j) := by
  obtain ⟨e0, e1, e2, -⟩ := idx_facts t
  show V m c main_arg1 (((cfg0.win 0).blk t).view.emb (ix3 (0 : Fin 1) p j)) = _
  refine congrArg (V m c main_arg1) (funext fun a => Fin.ext ?_)
  match a with
  | ⟨0, _⟩ => show win0_0.index t (0 : Fin 3) * 1 + 1 * 0 = i.val; omega
  | ⟨1, _⟩ => show win0_0.index t (1 : Fin 3) * 512 + 1 * p.val = r.val; omega
  | ⟨2, _⟩ => show win0_0.index t (2 : Fin 3) * 4096 + 1 * j.val = j.val; omega

/-- The feature block is the whole feature array. -/
theorem x_block (c : Dev nD) (t : Fin cfg0.N) (j : Fin 4096) (d : Fin 128) :
    (iblk m c 1 t : Vec F S4096x128 .f32) (ix2 j d) = V m c main_arg0 (ix2 j d) := by
  obtain ⟨-, -, -, e0, e1, -⟩ := idx_facts t
  show V m c main_arg0 (((cfg0.win 1).blk t).view.emb (ix2 j d)) = _
  refine congrArg (V m c main_arg0) (funext fun a => Fin.ext ?_)
  match a with
  | ⟨0, _⟩ => show win0_1.index t (0 : Fin 2) * 4096 + 1 * j.val = j.val; omega
  | ⟨1, _⟩ => show win0_1.index t (1 : Fin 2) * 128 + 1 * d.val = d.val; omega

/-- The weight block at point `t` is the hop's slice of the re-laid weight. -/
theorem wk_block (c : Dev nD) (t : Fin cfg0.N) (d o : Fin 128) (i : Fin 3) (hi : i.val = t.val / 8) :
    (iblk m c 2 t : Vec F S1x128x128 .f32) (ix3 (0 : Fin 1) d o) = V m c main_v1 (ix3 i d o) := by
  obtain ⟨-, -, -, -, -, e0, e1, e2, -⟩ := idx_facts t
  show V m c main_v1 (((cfg0.win 2).blk t).view.emb (ix3 (0 : Fin 1) d o)) = _
  refine congrArg (V m c main_v1) (funext fun a => Fin.ext ?_)
  match a with
  | ⟨0, _⟩ => show win0_2.index t (0 : Fin 3) * 1 + 1 * 0 = i.val; omega
  | ⟨1, _⟩ => show win0_2.index t (1 : Fin 3) * 128 + 1 * d.val = d.val; omega
  | ⟨2, _⟩ => show win0_2.index t (2 : Fin 3) * 128 + 1 * o.val = o.val; omega

/-- The bias block is the whole one-row bias. -/
theorem b_block (c : Dev nD) (t : Fin cfg0.N) (o : Fin 128) :
    (iblk m c 3 t : Vec F S1x128 .f32) (ix2 (0 : Fin 1) o) = V m c main_v2 (ix2 (0 : Fin 1) o) := by
  obtain ⟨-, -, -, -, -, -, -, -, e0, e1, -⟩ := idx_facts t
  show V m c main_v2 (((cfg0.win 3).blk t).view.emb (ix2 (0 : Fin 1) o)) = _
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 128 + 1 * o.val = o.val; omega

/-- The re-laid weight, as the region finds it: `wk[i, d, o] = W[o, 128 i + d]`. -/
theorem wk_read (c : Dev nD) (i : Fin 3) (d o : Fin 128) :
    V m c main_v1 (ix3 i d o) = m ((c.tc : Thread nD τ).loc main_arg2) (ix2 o (col i d)) := by
  have e : (V m c main_v1 : S3x128x128.Idx → Elt F .f32)
      = transpose S3x128x128 [1, 2, 0] (shapeCast S128x3x128 (m ((c.tc : Thread nD τ).loc main_arg2)) shapeCasts_S128x384_S128x3x128)
          transposes_S128x3x128_S3x128x128_1_2_0 := by
    dsimp only [V, hostOps0]; after_results; rfl
  rw [e]
  refine (transpose_apply _ _ _ (ix3 i d o) (ix3 o i d) (fun bx => ?_)).trans ?_
  · match bx with
    | ⟨0, _⟩ => rfl
    | ⟨1, _⟩ => rfl
    | ⟨2, _⟩ => rfl
  · refine shapeCast_apply _ _ (ix3 o i d) (ix2 o (col i d)) ?_
    rw [Shape.rowMajor_val_two, Shape.rowMajor_val_three]
    show o.val * 384 + (128 * i.val + d.val) = (o.val * 3 + i.val) * 128 + d.val
    omega

/-- The one-row bias, as the region finds it, is the bias. -/
theorem b_read (c : Dev nD) (o : Fin 128) :
    V m c main_v2 (ix2 (0 : Fin 1) o) = m ((c.tc : Thread nD τ).loc main_arg3) (ix1 o) := by
  have e : (V m c main_v2 : S1x128.Idx → Elt F .f32)
      = shapeCast S1x128 (m ((c.tc : Thread nD τ).loc main_arg3)) shapeCasts_S128_S1x128 := by
    dsimp only [V, hostOps0]; after_results; rfl
  rw [e]
  exact shapeCast_a_1a_apply _ _ (0 : Fin 1) o

end Cert.KernelIdeal.Blocks

end
-- ==== Proof.IdealValue.lean ====
/-
  The result array of the idealized kernel: the accumulation over the 24 grid points.

  Points run hop-major: `t = 8 i + rb`. After point `t`, row `r` (row block `r / 512`) has been visited by
  `hops t r = t / 8 + [r / 512 ≤ t mod 8]` hops, and — once that is at least one — holds the kernel's accumulation of that
  many hops: contrib 0 + bias, then + contrib 1, then + contrib 2. By induction over the points, from the step each point
  makes of the carried buffer. After the last point every row has all three hops, and the one write-back copies the buffer
  to the result array.
-/
import proofs.«176225_g24919400252013_cont_8to1_190_17_alg».proof.Proof.IdealFrame
import proofs.«176225_g24919400252013_cont_8to1_190_17_alg».proof.Proof.IdealPayload
import proofs.«176225_g24919400252013_cont_8to1_190_17_alg».proof.Proof.IdealBlocks
import proofs.«176225_g24919400252013_cont_8to1_190_17_alg».proof.Proof.Spec

set_option maxRecDepth 16384

noncomputable section

namespace Cert.KernelIdeal.Accumulate

open Cert.KernelIdeal Cert.KernelIdeal.Gen Cert.KernelIdeal.Rows Cert.KernelIdeal.Carried Cert.KernelIdeal.Payload
  Cert.KernelIdeal.Blocks Cert.KHop
open Idealize.ShloMosaic Idealize.ShloMosaic.TcCoe Idealize.ShloMosaic.ValueIdx Idealize.SL.Sem
open Idealize.ShloMosaic.Pipeline (Dat Cfg Window)

/-! ## How many hops a row has seen -/

/-- The hops that have visited row `r` once point `t` has run. -/
def hops (t r : ℕ) : ℕ := t / 8 + (if r / 512 ≤ t % 8 then 1 else 0)

theorem hops_in (t r : ℕ) (h : r / 512 = t % 8) : hops t r = t / 8 + 1 := by
  unfold hops; rw [if_pos (by omega)]

theorem hops_prev_in (t r : ℕ) (ht : 8 ≤ t) (h : r / 512 = t % 8) : hops (t - 1) r = t / 8 := by
  unfold hops; split_ifs <;> omega

theorem hops_prev_out (t r : ℕ) (ht : 1 ≤ t) (h : r / 512 ≠ t % 8) (hr : r < 4096) : hops (t - 1) r = hops t r := by
  unfold hops; split_ifs <;> omega

theorem hops_zero_out (r : ℕ) (h : r / 512 ≠ 0 % 8) : hops 0 r = 0 := by
  unfold hops; rw [if_neg (by omega)]

theorem hops_last (r : ℕ) (hr : r < 4096) : hops 23 r = 3 := by
  unfold hops; rw [if_pos (by omega)]

variable (m : (ℓ : Loc nD τ sig) → Buf (Elt Ideal) ℓ) (c : Dev nD)

/-- One more hop: the accumulation of `i` hops plus hop `i`'s contribution is that of `i + 1`. -/
theorem accN_succ (x : SX.Idx → EReal) (adj : SA.Idx → EReal) (W : SW.Idx → EReal) (b : SB.Idx → EReal)
    (i : Fin 3) (h : 1 ≤ i.val) (r : Fin 4096) (o : Fin 128) :
    accN x adj W b i.val r o + contrib x adj W i r o = accN x adj W b (i.val + 1) r o := by
  match i, h with
  | ⟨1, _⟩, _ => rfl
  | ⟨2, _⟩, _ => rfl

/-! ## One point's contribution -/

/-- The contribution the body computes at point `t`, at `(p, o)` of its 512 rows, is hop `t / 8`'s contribution to row
    `512 (t mod 8) + p` of the result. -/
theorem point_contrib (t : Fin cfg0.N) (p : Fin 512) (o : Fin 128) (i : Fin 3) (r : Fin 4096)
    (hi : i.val = t.val / 8) (hr : r.val = 512 * (t.val % 8) + p.val) :
    k0_pay1 (F := Ideal) (iblk m c 0 t) (iblk m c 1 t) (iblk m c 2 t) (ix2 p o) = contrib (m ((c.tc : Thread nD τ).loc main_arg0)) (m ((c.tc : Thread nD τ).loc main_arg1)) (m ((c.tc : Thread nD τ).loc main_arg2)) i r o := by
  refine (pay1_apply (iblk m c 0 t) (iblk m c 1 t) (iblk m c 2 t) p o).trans ?_
  unfold contrib support
  refine Finset.sum_congr rfl fun d _ => ?_
  refine congrArg₂ (· * ·) (Finset.sum_congr rfl fun j _ => ?_) ?_
  · rw [adj_block m c t p j i r hi hr, x_block m c t j d, V_main_arg1, V_main_arg0]
  · rw [wk_block m c t d o i hi, wk_read]

/-- The bias row the first hop adds. -/
theorem point_bias (t : Fin cfg0.N) (o : Fin 128) :
    (iblk m c 3 t : Vec Ideal S1x128 .f32) (ix2 (0 : Fin 1) o) = (m ((c.tc : Thread nD τ).loc main_arg3)) (ix1 o) := by
  rw [b_block m c t o, b_read]

/-! ## The invariant over the points -/

/-- After point `t`: every row some hop has visited holds the accumulation of the hops that have. -/
def Inv (t : ℕ) (X : Vec Ideal S4096x128 .f32) : Prop :=
  ∀ (r : Fin 4096) (o : Fin 128), 1 ≤ hops t r.val → X (ix2 r o) = accN (m ((c.tc : Thread nD τ).loc main_arg0)) (m ((c.tc : Thread nD τ).loc main_arg1)) (m ((c.tc : Thread nD τ).loc main_arg2)) (m ((c.tc : Thread nD τ).loc main_arg3)) (hops t r.val) r o

/-- The output window is never fetched. -/
theorem fetch4 : ∀ t : Fin cfg0.N, (cfg0.win 4).fetch t = false :=
  (by decide +kernel : ∀ t : Fin grid0.N, win0_4.fetch t = false)

/-- What any point leaves in the carried buffer satisfies the invariant. -/
theorem leaves_inv : ∀ (n : ℕ) (t : Fin cfg0.N), t.val = n → ∀ X, (data m c).Leaves 4 t X → Inv m c t.val X := by
  intro n
  induction n using Nat.strong_induction_on with
  | _ n ih =>
  intro t ht X hL
  obtain ⟨Y, hF, hS⟩ := hL
  rw [data_after4] at hS
  have hN : t.val < 24 := lt_of_lt_of_eq t.isLt (show cfg0.N = 24 from N_0)
  -- what the point found: after the first point, what the previous one left
  have hY : t.val ≠ 0 → Inv m c (t.val - 1) Y := fun h0 => by
    rcases ((data m c).finds_of_pos (fetch4 t) h0 Y).mp hF with hfl | hL'
    · have := (flush0_4 _).mp hfl
      simp only at this
      omega
    · exact ih (t.val - 1) (by omega) ⟨t.val - 1, Nat.lt_of_le_of_lt (Nat.sub_le _ _) t.isLt⟩ rfl Y hL'
  intro r o hn
  have hr4 : r.val < 4096 := r.isLt
  obtain ⟨hA, hB⟩ := hS
  by_cases hin : r.val / 512 = t.val % 8
  · -- a row of this point's block
    have hp : r.val - 512 * (t.val % 8) < 512 := by omega
    have h0 : ((ix2 r o : S4096x128.Idx) 0).val = rowOf t + ((ix2 (⟨r.val - 512 * (t.val % 8), hp⟩ : Fin 512) o : S512x128.Idx) 0).val := by
      show r.val = 512 * (t.val % 8) + (r.val - 512 * (t.val % 8)); omega
    have hrp : r.val = 512 * (t.val % 8) + (⟨r.val - 512 * (t.val % 8), hp⟩ : Fin 512).val := by
      show r.val = 512 * (t.val % 8) + (r.val - 512 * (t.val % 8)); omega
    rw [hops_in _ _ hin]
    by_cases h8 : t.val < 8
    · obtain ⟨hrows, -⟩ := hA h8
      rw [hrows (ix2 r o) (ix2 ⟨r.val - 512 * (t.val % 8), hp⟩ o) h0 rfl, pay2_apply,
        point_contrib m c t ⟨r.val - 512 * (t.val % 8), hp⟩ o ⟨0, by omega⟩ r (by show 0 = t.val / 8; omega) hrp, point_bias]
      have e : t.val / 8 + 1 = 1 := by omega
      rw [e]
      rfl
    · obtain ⟨q, hq, hrows, -⟩ := hB (by omega)
      have hi3 : t.val / 8 < 3 := by omega
      rw [hrows (ix2 r o) (ix2 ⟨r.val - 512 * (t.val % 8), hp⟩ o) h0 rfl, pay3_apply,
        ← hq (ix2 r o) (ix2 ⟨r.val - 512 * (t.val % 8), hp⟩ o) h0 rfl,
        point_contrib m c t ⟨r.val - 512 * (t.val % 8), hp⟩ o ⟨t.val / 8, hi3⟩ r rfl hrp]
      have hprev := hY (by omega) r o (by rw [hops_prev_in _ _ (by omega) hin]; omega)
      rw [hprev, hops_prev_in _ _ (by omega) hin]
      exact accN_succ _ _ _ _ ⟨t.val / 8, hi3⟩ (by show 1 ≤ t.val / 8; omega) r o
  · -- a row of another block: kept
    have hk : X (ix2 r o) = Y (ix2 r o) := by
      have hout : ((ix2 r o : S4096x128.Idx) 0).val < rowOf t ∨ rowOf t + 512 ≤ ((ix2 r o : S4096x128.Idx) 0).val := by
        show r.val < 512 * (t.val % 8) ∨ 512 * (t.val % 8) + 512 ≤ r.val; omega
      by_cases h8 : t.val < 8
      · exact (hA h8).2 (ix2 r o) hout
      · obtain ⟨q, -, -, hkept⟩ := hB (by omega)
        exact hkept (ix2 r o) hout
    have ht0 : t.val ≠ 0 := fun h0 => by
      rw [h0] at hn hin
      rw [hops_zero_out _ hin] at hn
      omega
    rw [hk, ← hops_prev_out _ _ (by omega) hin hr4]
    exact hY ht0 r o (by rw [hops_prev_out _ _ (by omega) hin hr4]; exact hn)

/-- What the last point leaves is the result. -/
theorem last_leaves (t : Fin cfg0.N) (ht : t.val = 23) (X : Vec Ideal S4096x128 .f32) (hL : (data m c).Leaves 4 t X) :
    X = result (m ((c.tc : Thread nD τ).loc main_arg0)) (m ((c.tc : Thread nD τ).loc main_arg1)) (m ((c.tc : Thread nD τ).loc main_arg2)) (m ((c.tc : Thread nD τ).loc main_arg3)) := by
  funext j
  rw [eq_ix2 j]
  have h := leaves_inv m c 23 t ht X hL (j 0) (j 1)
  rw [ht, hops_last _ (j 0).isLt] at h
  exact h (by omega)

end Cert.KernelIdeal.Accumulate

end
-- ==== Proof.IdealResult.lean ====
/-
  The idealized kernel's run, with its result array named.

  The output window's block is the whole result array and its index never moves, so the pipeline writes it back once,
  after the last of the 24 points. Before that the array is as the region found it; the write-back overwrites all of it
  with the carried buffer, which by then holds the accumulation of all three hops in every row.
-/
import proofs.«176225_g24919400252013_cont_8to1_190_17_alg».proof.Proof.IdealValue

set_option maxRecDepth 16384

noncomputable section

namespace Cert.KernelIdeal.Outcome

open Cert.KernelIdeal Cert.KernelIdeal.Gen Cert.KernelIdeal.Carried Cert.KernelIdeal.Blocks Cert.KernelIdeal.Accumulate Cert.KHop
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A point that writes the block back overwrites it with something the body may have left there. -/
theorem arr_succ (c : Dev nD) (n k : ℕ) (hn : n = k + 1) (hlt : k < cfg0.N) (hfl : (cfg0.win 4).flush ⟨k, hlt⟩ = true)
    (F : Buf (Elt Ideal) (((cfg0.win 4).arr.view.loc (c.tc : Thread nD τ)))) :
    (data m c).ArrAt 4 n F → (data m c).ArrStep 4 ⟨k, hlt⟩ ((data m c).ArrAt 4 k) F := by
  subst hn
  intro h
  simp only [Pipeline.RDat.ArrAt] at h
  rw [dif_pos hlt, if_pos hfl] at h
  exact h

/-- Reading a buffer through the output window's block at a point is reading it at the block's indices, -/
theorem read_blk (c : Dev nD) (t : Fin cfg0.N) (B : Buf (Elt Ideal) ((cfg0.win 4).arr.view.loc (c.tc : Thread nD τ))) (j : S4096x128.Idx) :
    ((cfg0.win 4).blk t).view.read (Elt Ideal) B j = B (((cfg0.win 4).blk t).view.emb j) := rfl

/-- which are the array's own: the block is the whole array. -/
theorem emb_blk (t : Fin cfg0.N) (j : S4096x128.Idx) : ((cfg0.win 4).blk t).view.emb j = j := by
  obtain ⟨-, -, -, -, -, -, -, -, -, -, e0, e1⟩ := idx_facts t
  exact funext fun a => Fin.ext (by
    match a with
    | ⟨0, _⟩ => show win0_4.index t (0 : Fin 2) * 4096 + 1 * (j 0).val = (j 0).val; omega
    | ⟨1, _⟩ => show win0_4.index t (1 : Fin 2) * 128 + 1 * (j 1).val = (j 1).val; omega)

/-- A write of the whole block reads back as what was written. -/
theorem read_write_blk (c : Dev nD) (t : Fin cfg0.N) (G₀ : Buf (Elt Ideal) ((cfg0.win 4).arr.view.loc (c.tc : Thread nD τ)))
    (Z : ((cfg0.win 4).xblock (cfg0.grid.coords t)).Idx → Elt Ideal (cfg0.win 4).elt) :
    ((cfg0.win 4).blk t).view.read (Elt Ideal) (((cfg0.win 4).blk t).view.write (Elt Ideal) G₀ Z Finset.univ) = Z :=
  View.read_write_univ _ _

/-- The block is never cut: all of the carried buffer is written back. -/
theorem cut_blk (t : Fin cfg0.N) (X : Vec Ideal S4096x128 .f32) (j : S4096x128.Idx) :
    (cfg0.win 4).cut (cfg0.grid.coords t) X j = X j :=
  congrArg X (funext fun a => Fin.ext rfl)

/-- THE RESULT ARRAY after every write-back is the result, index by index. -/
theorem arr_final (c : Dev nD) (F : Buf (Elt Ideal) ((cfg0.win 4).arr.view.loc (c.tc : Thread nD τ)))
    (h : (data m c).ArrAt 4 cfg0.N F) (j : S4096x128.Idx) : F j = result (m ((c.tc : Thread nD τ).loc main_arg0)) (m ((c.tc : Thread nD τ).loc main_arg1)) (m ((c.tc : Thread nD τ).loc main_arg2)) (m ((c.tc : Thread nD τ).loc main_arg3)) j := by
  have hN : cfg0.N = 23 + 1 := N_0
  have hlt : 23 < cfg0.N := by rw [hN]; omega
  obtain ⟨G₀, X, -, hL, hF⟩ := arr_succ m c cfg0.N 23 hN hlt ((flush0_4 ⟨23, hlt⟩).mpr rfl) F h
  have hX := last_leaves m c ⟨23, hlt⟩ rfl X hL
  calc F j = F (((cfg0.win 4).blk ⟨23, hlt⟩).view.emb j) := by rw [emb_blk ⟨23, hlt⟩ j]
    _ = ((cfg0.win 4).blk ⟨23, hlt⟩).view.read (Elt Ideal) F j := (read_blk c ⟨23, hlt⟩ F j).symm
    _ = (cfg0.win 4).cut (cfg0.grid.coords ⟨23, hlt⟩) X j := by rw [hF, read_write_blk]
    _ = X j := cut_blk ⟨23, hlt⟩ X j
    _ = result (m ((c.tc : Thread nD τ).loc main_arg0)) (m ((c.tc : Thread nD τ).loc main_arg1)) (m ((c.tc : Thread nD τ).loc main_arg2)) (m ((c.tc : Thread nD τ).loc main_arg3)) j := by rw [hX]

/-- THE RUN, read: every weakly fair execution of @main terminates with the result array at `result` of the arguments as
    launched, and the arguments unchanged. -/
theorem run : θ_run defs (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_main m ρ)
  obtain ⟨hw, hrest⟩ := hr c
  have h1 := hw 1
  have h0 := hw 0
  rw [(data m c).ArrAt_in 1 rfl] at h1
  rw [(data m c).ArrAt_in 0 rfl] at h0
  exact ⟨funext fun j => arr_final m c _ (hw 4) j, h1.trans (V_main_arg0 m c), h0.trans (V_main_arg1 m c),
    (hrest main_arg2 (Pipeline.mem_restRefs_of main_arg2 (by decide) (by decide))).trans (V_main_arg2 m c),
    (hrest main_arg3 (Pipeline.mem_restRefs_of main_arg3 (by decide) (by decide))).trans (V_main_arg3 m c)⟩

end Cert.KernelIdeal.Outcome

end
-- ==== Proof.RefValue.lean ====
/-
  The reference, read index by index: it computes the result.

  Each hop's `dot_general` of the sliced adjacency with the features is the hop's support; the concatenation along the
  feature axis puts hop `i`'s feature `d` at column `128 i + d`; the last `dot_general` contracts those 384 columns
  against the transposed weight, and the bias row is added. By the joining law that is the kernel's accumulation.
-/
import proofs.«176225_g24919400252013_cont_8to1_190_17_alg».proof.Proof.Gen.ReferenceIdeal.Read
import proofs.«176225_g24919400252013_cont_8to1_190_17_alg».proof.Proof.Spec
import Idealize.ShloMosaic.Lib.ValueIdx
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Read Cert.KHop
open Idealize.ShloMosaic Idealize.ShloMosaic.ValueIdx

/-- The reference's hop 0: the sliced, reshaped adjacency times the features is the hop's support. -/
theorem hop0 (x0 : SX.Idx → EReal) (x1 : SA.Idx → EReal) (r : Fin 4096) (d : Fin 128) :
    val_main_v2 (F := Ideal) x0 x1 (ix2 r d) = support x0 x1 0 r d := by
  rw [val_main_v2_apply]
  unfold support
  refine Finset.sum_congr rfl fun j _ => ?_
  rw [val_main_v1_apply, val_main_v0_apply]
  refine congrArg₂ (· * ·) (congrArg x1 (funext fun a => Fin.ext ?_)) (congrArg x0 (funext fun a => Fin.ext ?_))
  · match a with
    | ⟨0, _⟩ => rfl
    | ⟨1, _⟩ =>
      show (r.val * 4096 + j.val) / 4096 % 4096 = r.val
      have := r.isLt; have := j.isLt; omega
    | ⟨2, _⟩ =>
      show (r.val * 4096 + j.val) % 4096 = j.val
      have := j.isLt; omega
  · match a with
    | ⟨0, _⟩ => rfl
    | ⟨1, _⟩ => rfl

/-- The reference's hop 1: the sliced, reshaped adjacency times the features is the hop's support. -/
theorem hop1 (x0 : SX.Idx → EReal) (x1 : SA.Idx → EReal) (r : Fin 4096) (d : Fin 128) :
    val_main_v5 (F := Ideal) x0 x1 (ix2 r d) = support x0 x1 1 r d := by
  rw [val_main_v5_apply]
  unfold support
  refine Finset.sum_congr rfl fun j _ => ?_
  rw [val_main_v4_apply, val_main_v3_apply]
  refine congrArg₂ (· * ·) (congrArg x1 (funext fun a => Fin.ext ?_)) (congrArg x0 (funext fun a => Fin.ext ?_))
  · match a with
    | ⟨0, _⟩ => rfl
    | ⟨1, _⟩ =>
      show (r.val * 4096 + j.val) / 4096 % 4096 = r.val
      have := r.isLt; have := j.isLt; omega
    | ⟨2, _⟩ =>
      show (r.val * 4096 + j.val) % 4096 = j.val
      have := j.isLt; omega
  · match a with
    | ⟨0, _⟩ => rfl
    | ⟨1, _⟩ => rfl

/-- The reference's hop 2: the sliced, reshaped adjacency times the features is the hop's support. -/
theorem hop2 (x0 : SX.Idx → EReal) (x1 : SA.Idx → EReal) (r : Fin 4096) (d : Fin 128) :
    val_main_v8 (F := Ideal) x0 x1 (ix2 r d) = support x0 x1 2 r d := by
  rw [val_main_v8_apply]
  unfold support
  refine Finset.sum_congr rfl fun j _ => ?_
  rw [val_main_v7_apply, val_main_v6_apply]
  refine congrArg₂ (· * ·) (congrArg x1 (funext fun a => Fin.ext ?_)) (congrArg x0 (funext fun a => Fin.ext ?_))
  · match a with
    | ⟨0, _⟩ => rfl
    | ⟨1, _⟩ =>
      show (r.val * 4096 + j.val) / 4096 % 4096 = r.val
      have := r.isLt; have := j.isLt; omega
    | ⟨2, _⟩ =>
      show (r.val * 4096 + j.val) % 4096 = j.val
      have := j.isLt; omega
  · match a with
    | ⟨0, _⟩ => rfl
    | ⟨1, _⟩ => rfl

/-- Column `128 i + d` of the concatenation is hop `i`'s support at feature `d`. -/
theorem cat_col (x0 : SX.Idx → EReal) (x1 : SA.Idx → EReal) (i : Fin 3) (r : Fin 4096) (d : Fin 128) :
    val_main_v9 (F := Ideal) x0 x1 (ix2 r (col i d)) = support x0 x1 i r d := by
  unfold val_main_v9
  match i with
  | ⟨0, _⟩ =>
    refine (concatenate_apply_piece (1 : Fin S4096x384.rank) _ _ (ix2 r (col 0 d)) 0 (by show 0 < 3; omega) S4096x128 _ rfl rfl 0 rfl
      (ix2 r d) (fun bx hb => ?_) ?_).trans (hop0 x0 x1 r d)
    · match bx with
      | ⟨0, _⟩ => rfl
      | ⟨1, _⟩ => exact absurd rfl hb
    · show 0 + d.val = 128 * 0 + d.val; omega
  | ⟨1, _⟩ =>
    refine (concatenate_apply_piece (1 : Fin S4096x384.rank) _ _ (ix2 r (col 1 d)) 1 (by show 1 < 3; omega) S4096x128 _ rfl rfl 128 rfl
      (ix2 r d) (fun bx hb => ?_) ?_).trans (hop1 x0 x1 r d)
    · match bx with
      | ⟨0, _⟩ => rfl
      | ⟨1, _⟩ => exact absurd rfl hb
    · show 128 + d.val = 128 * 1 + d.val; omega
  | ⟨2, _⟩ =>
    refine (concatenate_apply_piece (1 : Fin S4096x384.rank) _ _ (ix2 r (col 2 d)) 2 (by show 2 < 3; omega) S4096x128 _ rfl rfl 256 rfl
      (ix2 r d) (fun bx hb => ?_) ?_).trans (hop2 x0 x1 r d)
    · match bx with
      | ⟨0, _⟩ => rfl
      | ⟨1, _⟩ => exact absurd rfl hb
    · show 256 + d.val = 128 * 2 + d.val; omega

/-- THE REFERENCE'S RESULT is the result. -/
theorem ref_eq (x0 : SX.Idx → EReal) (x1 : SA.Idx → EReal) (x2 : SW.Idx → EReal) (x3 : SB.Idx → EReal) :
    val_main_v14 (F := Ideal) x0 x1 x2 x3 = result x0 x1 x2 x3 := by
  funext j
  obtain ⟨r, o, rfl⟩ : ∃ (r : Fin 4096) (o : Fin 128), j = ix2 r o := ⟨j 0, j 1, eq_ix2 j⟩
  rw [val_main_v14_apply, val_main_v11_apply, val_main_v13_apply, val_main_v12_apply]
  show (∑ k : Fin 384, val_main_v9 (F := Ideal) x0 x1 (lidx_main_v11 (ix2 r o) k) * val_main_v10 (F := Ideal) x2 (ridx_main_v11 (ix2 r o) k))
      + x3 (idx_main_v12 (idx_main_v13 (ix2 r o))) = acc3 x0 x1 x2 x3 r o
  have e12 : idx_main_v12 (idx_main_v13 (ix2 r o)) = ix1 o := funext fun a => Fin.ext (by match a with | ⟨0, _⟩ => rfl)
  have el : ∀ k : Fin 384, lidx_main_v11 (ix2 r o) k = ix2 r k := fun k => funext fun a => Fin.ext (by
    match a with
    | ⟨0, _⟩ => rfl
    | ⟨1, _⟩ => rfl)
  have er : ∀ k : Fin 384, val_main_v10 (F := Ideal) x2 (ridx_main_v11 (ix2 r o) k) = x2 (ix2 o k) := fun k => by
    rw [val_main_v10_apply]
    exact congrArg x2 (funext fun a => Fin.ext (by
      match a with
      | ⟨0, _⟩ => rfl
      | ⟨1, _⟩ => rfl))
  rw [e12]
  simp only [el, er]
  exact join x0 x1 x2 x3 (fun r' c => val_main_v9 (F := Ideal) x0 x1 (ix2 r' c)) (fun i r' d => cat_col x0 x1 i r' d) r o

end Cert.ReferenceIdeal.RefValue

end
-- ==== Proof.lean ====
/-
  A fused three-hop graph convolution against its reference: out = concat_i(adj_i · x) · Wᵀ + b.

  The kernel walks a 3 x 8 grid (hop, row block), keeping the whole 4096 x 128 result in one carried buffer: at hop 0 it
  sets a row block to (adj_0 · x) · W_0 + b, at hops 1 and 2 it adds (adj_i · x) · W_i to it, W_i the hop's 128 columns
  of the weight, transposed. The reference concatenates the three supports along the feature axis and multiplies once by
  the transposed weight. Over the extended reals the two are one function of the arguments: a sum over 384 columns is
  three sums over 128, and addition is commutative and associative (no finiteness is used; `finite_inputs` is never
  opened).

  Frames: the body at a point is run in its two cases (first hop; later hop) with the carried buffer's change stated as
  a relation between what the point found and what it left; the library's launch theorem for relational proof data gives
  the region's run, for the word-level kernel and for the idealized one alike. The reference's frame is its run with the
  result dropped. The ideal pass rewrote nothing, so the idealization claim is trivial. The value: by induction over the
  24 points every row ends at the three-hop accumulation, which the one write-back copies to the result array; the
  reference's stages, read index by index, give the same array.
-/
import proofs.«176225_g24919400252013_cont_8to1_190_17_alg».proof.Defs
import proofs.«176225_g24919400252013_cont_8to1_190_17_alg».proof.Proof.Gen.Kernel
import proofs.«176225_g24919400252013_cont_8to1_190_17_alg».proof.Proof.Gen.KernelIdeal
import proofs.«176225_g24919400252013_cont_8to1_190_17_alg».proof.Proof.Gen.ReferenceIdeal
import proofs.«176225_g24919400252013_cont_8to1_190_17_alg».proof.Proof.Gen.ReferenceIdeal.Run
import proofs.«176225_g24919400252013_cont_8to1_190_17_alg».proof.Proof.Gen.Pre_finite_inputs
import proofs.«176225_g24919400252013_cont_8to1_190_17_alg».proof.Proof.WordFrame
import proofs.«176225_g24919400252013_cont_8to1_190_17_alg».proof.Proof.IdealResult
import proofs.«176225_g24919400252013_cont_8to1_190_17_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_word : Cert.frame_Kernel := fun m ρ _ => Cert.Kernel.Carried.frame m ρ

/-- So does the idealized kernel. -/
theorem frame_ideal : Cert.frame_KernelIdeal := fun m ρ _ => Cert.KernelIdeal.Carried.frame m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, the idealized kernel's result array and the reference's both end at the
    three-hop accumulation of the arguments. -/
theorem algebraic : Cert.algebraic_KernelIdeal_ReferenceIdeal := by
  intro m ρ m' ρ' _ hagree
  refine ⟨fun c => Cert.KHop.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Outcome.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
